-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v66)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v66) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x512 : Shape := ⟨2, ![8192, 512]⟩
abbrev S512x10752 : Shape := ⟨2, ![512, 10752]⟩
abbrev S10752 : Shape := ⟨1, ![10752]⟩
abbrev S256x512 : Shape := ⟨2, ![256, 512]⟩
abbrev S256 : Shape := ⟨1, ![256]⟩
abbrev S2688 : Shape := ⟨1, ![2688]⟩
abbrev S_ : Shape := ⟨0, ![]⟩

class Facts : Prop where
  bcast_S_S8192x512 : S_.BroadcastsInDim S8192x512 (![] : Fin 0 → Fin S8192x512.rank)
  reducesTo_S8192x512_S_d0_1 : S8192x512.ReducesTo [0, 1] S_
  h_S_ : 0 < S_.numel
  bcast_S_S512x10752 : S_.BroadcastsInDim S512x10752 (![] : Fin 0 → Fin S512x10752.rank)
  reducesTo_S512x10752_S_d0_1 : S512x10752.ReducesTo [0, 1] S_
  bcast_S_S10752 : S_.BroadcastsInDim S10752 (![] : Fin 0 → Fin S10752.rank)
  reducesTo_S10752_S_d0 : S10752.ReducesTo [0] S_
  bcast_S_S256x512 : S_.BroadcastsInDim S256x512 (![] : Fin 0 → Fin S256x512.rank)
  reducesTo_S256x512_S_d0_1 : S256x512.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg4 : FVec F S256x512 .f32) (main_arg5 : FVec F S256 .f32) (main_v13 : IVec S_ 1) (main_v16 : IVec S10752 1) : IVec S_ 1 :=
  let main_c_5 : IVec S_ 1 := constantI S_ 1 1#1
  let main_v17 : IVec S_ 1 := (fun x v => Host.reduce IntOp.andi x v reducesTo_S10752_S_d0 h_S_) main_v16 main_c_5
  let main_v18 : IVec S_ 1 := andi main_v13 main_v17
  let main_v19 : FVec F S256x512 .f32 := Host.absf main_arg4
  let main_cst_6 : FVec F S_ .f32 := constant S_ .f32 0x7F800000#32
  let main_v20 : FVec F S256x512 .f32 := broadcastInDim S256x512 ![] bcast_S_S256x512 main_cst_6
  let main_v21 : IVec S256x512 1 := cmpf .olt main_v19 main_v20
  let main_c_7 : IVec S_ 1 := constantI S_ 1 1#1
  let main_v22 : IVec S_ 1 := (fun x v => Host.reduce IntOp.andi x v reducesTo_S256x512_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  main_v28

def fn {F : FTy → Type} [FloatOps F] (main_arg0 : FVec F S8192x512 .f32) (main_arg1 : FVec F S512x10752 .f32) (main_arg2 : FVec F S512x10752 .f32) (main_arg3 : FVec F S10752 .f32) (main_arg4 : FVec F S256x512 .f32) (main_arg5 : FVec F S256 .f32) (main_arg6 : IVec S10752 32) (main_arg7 : IVec S2688 32) : IVec S_ 1 :=
  let main_v0 : FVec F S8192x512 .f32 := Host.absf main_arg0
  let main_cst : FVec F S_ .f32 := constant S_ .f32 0x7F800000#32
  let main_v1 : FVec F S8192x512 .f32 := broadcastInDim S8192x512 ![] bcast_S_S8192x512 main_cst
  let main_v2 : IVec S8192x512 1 := cmpf .olt main_v0 main_v1
  let main_c : IVec S_ 1 := constantI S_ 1 1#1
  let main_v3 : IVec S_ 1 := (fun x v => Host.reduce IntOp.andi x v reducesTo_S8192x512_S_d0_1 h_S_) main_v2 main_c
  let main_v4 : FVec F S512x10752 .f32 := Host.absf main_arg1
  let main_cst_0 : FVec F S_ .f32 := constant S_ .f32 0x7F800000#32
  let main_v5 : FVec F S512x10752 .f32 := broadcastInDim S512x10752 ![] bcast_S_S512x10752 main_cst_0
  let main_v6 : IVec S512x10752 1 := cmpf .olt main_v4 main_v5
  let main_c_1 : IVec S_ 1 := constantI S_ 1 1#1
  let main_v7 : IVec S_ 1 := (fun x v => Host.reduce IntOp.andi x v reducesTo_S512x10752_S_d0_1 h_S_) main_v6 main_c_1
  let main_v8 : IVec S_ 1 := andi main_v3 main_v7
  let main_v9 : FVec F S512x10752 .f32 := Host.absf main_arg2
  let main_cst_2 : FVec F S_ .f32 := constant S_ .f32 0x7F800000#32
  let main_v10 : FVec F S512x10752 .f32 := broadcastInDim S512x10752 ![] bcast_S_S512x10752 main_cst_2
  let main_v11 : IVec S512x10752 1 := cmpf .olt main_v9 main_v10
  let main_c_3 : IVec S_ 1 := constantI S_ 1 1#1
  let main_v12 : IVec S_ 1 := (fun x v => Host.reduce IntOp.andi x v reducesTo_S512x10752_S_d0_1 h_S_) main_v11 main_c_3
  let main_v13 : IVec S_ 1 := andi main_v8 main_v12
  let main_v14 : FVec F S10752 .f32 := Host.absf main_arg3
  let main_cst_4 : FVec F S_ .f32 := constant S_ .f32 0x7F800000#32
  let main_v15 : FVec F S10752 .f32 := broadcastInDim S10752 ![] bcast_S_S10752 main_cst_4
  let main_v16 : IVec S10752 1 := cmpf .olt main_v14 main_v15
  fn_part1 (F := F) main_arg4 main_arg5 main_v13 main_v16
-- ==== Kernel.lean ====
abbrev S8192x512 : Shape := ⟨2, ![8192, 512]⟩
abbrev S512x10752 : Shape := ⟨2, ![512, 10752]⟩
abbrev S10752 : Shape := ⟨1, ![10752]⟩
abbrev S256x512 : Shape := ⟨2, ![256, 512]⟩
abbrev S256 : Shape := ⟨1, ![256]⟩
abbrev S2688 : Shape := ⟨1, ![2688]⟩
abbrev S1x10752 : Shape := ⟨2, ![1, 10752]⟩
abbrev S8192x10752 : Shape := ⟨2, ![8192, 10752]⟩
abbrev S1024x512 : Shape := ⟨2, ![1024, 512]⟩
abbrev S512x1536 : Shape := ⟨2, ![512, 1536]⟩
abbrev S1x1536 : Shape := ⟨2, ![1, 1536]⟩
abbrev S1024x1536 : Shape := ⟨2, ![1024, 1536]⟩
abbrev S_ : Shape := ⟨0, ![]⟩
abbrev S10752x1 : Shape := ⟨2, ![10752, 1]⟩
abbrev S10752x8192 : Shape := ⟨2, ![10752, 8192]⟩
abbrev S2688x8192 : Shape := ⟨2, ![2688, 8192]⟩
abbrev S8192x2688 : Shape := ⟨2, ![8192, 2688]⟩
abbrev S1x2688 : Shape := ⟨2, ![1, 2688]⟩
abbrev S2688x1 : Shape := ⟨2, ![2688, 1]⟩
abbrev S256x8192 : Shape := ⟨2, ![256, 8192]⟩
abbrev S8192x256 : Shape := ⟨2, ![8192, 256]⟩
abbrev S1x256 : Shape := ⟨2, ![1, 256]⟩
abbrev S8192 : Shape := ⟨1, ![8192]⟩
abbrev S8192x1 : Shape := ⟨2, ![8192, 1]⟩
abbrev S512x256 : Shape := ⟨2, ![512, 256]⟩

abbrev nBuf : Space → Nat
  | .hbm => 91
  | .vmem => 10
  | .smem => 0
  | _ => 0

abbrev bufTy : (tb : Table) → Fin (tcTables nBuf tb) → BufTy
  | .hbm, ⟨0, _⟩ => ⟨S8192x512, .f32⟩
  | .hbm, ⟨1, _⟩ => ⟨S512x10752, .f32⟩
  | .hbm, ⟨2, _⟩ => ⟨S512x10752, .f32⟩
  | .hbm, ⟨3, _⟩ => ⟨S10752, .f32⟩
  | .hbm, ⟨4, _⟩ => ⟨S256x512, .f32⟩
  | .hbm, ⟨5, _⟩ => ⟨S256, .f32⟩
  | .hbm, ⟨6, _⟩ => ⟨S10752, .i32⟩
  | .hbm, ⟨7, _⟩ => ⟨S2688, .i32⟩
  | .hbm, ⟨8, _⟩ => ⟨S1x10752, .f32⟩
  | .hbm, ⟨9, _⟩ => ⟨S8192x10752, .f32⟩
  | .hbm, ⟨10, _⟩ => ⟨S_, .f32⟩
  | .hbm, ⟨11, _⟩ => ⟨S10752, .f32⟩
  | .hbm, ⟨12, _⟩ => ⟨S_, .f32⟩
  | .hbm, ⟨13, _⟩ => ⟨S2688, .f32⟩
  | .hbm, ⟨14, _⟩ => ⟨S10752x1, .i32⟩
  | .hbm, ⟨15, _⟩ => ⟨S2688, .f32⟩
  | .hbm, ⟨16, _⟩ => ⟨S10752x8192, .f32⟩
  | .hbm, ⟨17, _⟩ => ⟨S_, .f32⟩
  | .hbm, ⟨18, _⟩ => ⟨S2688x8192, .f32⟩
  | .hbm, ⟨19, _⟩ => ⟨S10752x1, .i32⟩
  | .hbm, ⟨20, _⟩ => ⟨S2688x8192, .f32⟩
  | .hbm, ⟨21, _⟩ => ⟨S8192x2688, .f32⟩
  | .hbm, ⟨22, _⟩ => ⟨S1x2688, .f32⟩
  | .hbm, ⟨23, _⟩ => ⟨S8192x2688, .f32⟩
  | .hbm, ⟨24, _⟩ => ⟨S8192x2688, .f32⟩
  | .hbm, ⟨25, _⟩ => ⟨S_, .f32⟩
  | .hbm, ⟨26, _⟩ => ⟨S8192x2688, .f32⟩
  | .hbm, ⟨27, _⟩ => ⟨S8192x2688, .f32⟩
  | .hbm, ⟨28, _⟩ => ⟨S8192x2688, .f32⟩
  | .hbm, ⟨29, _⟩ => ⟨S_, .f32⟩
  | .hbm, ⟨30, _⟩ => ⟨S2688, .f32⟩
  | .hbm, ⟨31, _⟩ => ⟨S_, .f32⟩
  | .hbm, ⟨32, _⟩ => ⟨S256, .f32⟩
  | .hbm, ⟨33, _⟩ => ⟨S2688x1, .i32⟩
  | .hbm, ⟨34, _⟩ => ⟨S256, .f32⟩
  | .hbm, ⟨35, _⟩ => ⟨S2688x8192, .f32⟩
  | .hbm, ⟨36, _⟩ => ⟨S_, .f32⟩
  | .hbm, ⟨37, _⟩ => ⟨S256x8192, .f32⟩
  | .hbm, ⟨38, _⟩ => ⟨S2688x1, .i32⟩
  | .hbm, ⟨39, _⟩ => ⟨S256x8192, .f32⟩
  | .hbm, ⟨40, _⟩ => ⟨S8192x256, .f32⟩
  | .hbm, ⟨41, _⟩ => ⟨S1x256, .f32⟩
  | .hbm, ⟨42, _⟩ => ⟨S8192x256, .f32⟩
  | .hbm, ⟨43, _⟩ => ⟨S8192x256, .f32⟩
  | .hbm, ⟨44, _⟩ => ⟨S_, .f32⟩
  | .hbm, ⟨45, _⟩ => ⟨S8192x256, .f32⟩
  | .hbm, ⟨46, _⟩ => ⟨S8192x256, .f32⟩
  | .hbm, ⟨47, _⟩ => ⟨S8192x256, .f32⟩
  | .hbm, ⟨48, _⟩ => ⟨S8192x512, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S512x256, .f32⟩
  | .hbm, ⟨53, _⟩ => ⟨S8192x256, .f32⟩
  | .hbm, ⟨54, _⟩ => ⟨S_, .f32⟩
  | .hbm, ⟨55, _⟩ => ⟨S8192x256, .f32⟩
  | .hbm, ⟨56, _⟩ => ⟨S8192x256, .f32⟩
  | .hbm, ⟨57, _⟩ => ⟨S8192x256, .f32⟩
  | .hbm, ⟨58, _⟩ => ⟨S8192x256, .f32⟩
  | .hbm, ⟨59, _⟩ => ⟨S256x512, .f32⟩
  | .hbm, ⟨60, _⟩ => ⟨S_, .f32⟩
  | .hbm, ⟨61, _⟩ => ⟨S256, .f32⟩
  | .hbm, ⟨62, _⟩ => ⟨S1x256, .f32⟩
  | .hbm, ⟨63, _⟩ => ⟨S8192x256, .f32⟩
  | .hbm, ⟨64, _⟩ => ⟨S8192x256, .f32⟩
  | .hbm, ⟨65, _⟩ => ⟨S_, .f32⟩
  | .hbm, ⟨66, _⟩ => ⟨S8192x256, .f32⟩
  | .hbm, ⟨67, _⟩ => ⟨S8192x256, .f32⟩
  | .hbm, ⟨68, _⟩ => ⟨S256, .f32⟩
  | .hbm, ⟨69, _⟩ => ⟨S1x256, .f32⟩
  | .hbm, ⟨70, _⟩ => ⟨S8192x256, .f32⟩
  | .hbm, ⟨71, _⟩ => ⟨S8192x256, .f32⟩
  | .hbm, ⟨72, _⟩ => ⟨S8192x256, .f32⟩
  | .hbm, ⟨73, _⟩ => ⟨S_, .f32⟩
  | .hbm, ⟨74, _⟩ => ⟨S8192x256, .f32⟩
  | .hbm, ⟨75, _⟩ => ⟨S8192x256, .f32⟩
  | .hbm, ⟨76, _⟩ => ⟨S_, .f32⟩
  | .hbm, ⟨77, _⟩ => ⟨S8192, .f32⟩
  | .hbm, ⟨78, _⟩ => ⟨S_, .f32⟩
  | .hbm, ⟨79, _⟩ => ⟨S8192, .f32⟩
  | .hbm, ⟨80, _⟩ => ⟨S8192, .f32⟩
  | .hbm, ⟨81, _⟩ => ⟨S8192x1, .f32⟩
  | .hbm, ⟨82, _⟩ => ⟨S8192x256, .f32⟩
  | .hbm, ⟨83, _⟩ => ⟨S8192x256, .f32⟩
  | .hbm, ⟨84, _⟩ => ⟨S8192x256, .f32⟩
  | .hbm, ⟨85, _⟩ => ⟨S_, .f32⟩
  | .hbm, ⟨86, _⟩ => ⟨S8192, .f32⟩
  | .hbm, ⟨87, _⟩ => ⟨S8192x1, .f32⟩
  | .hbm, ⟨88, _⟩ => ⟨S8192x256, .f32⟩
  | .hbm, ⟨89, _⟩ => ⟨S8192x256, .f32⟩
  | .hbm, ⟨90, _⟩ => ⟨S8192x256, .f32⟩
  | .local _ .vmem, ⟨0, _⟩ => ⟨S1024x512, .f32⟩
  | .local _ .vmem, ⟨1, _⟩ => ⟨S1024x512, .f32⟩
  | .local _ .vmem, ⟨2, _⟩ => ⟨S512x1536, .f32⟩
  | .local _ .vmem, ⟨3, _⟩ => ⟨S512x1536, .f32⟩
  | .local _ .vmem, ⟨4, _⟩ => ⟨S512x1536, .f32⟩
  | .local _ .vmem, ⟨5, _⟩ => ⟨S512x1536, .f32⟩
  | .local _ .vmem, ⟨6, _⟩ => ⟨S1x1536, .f32⟩
  | .local _ .vmem, ⟨7, _⟩ => ⟨S1x1536, .f32⟩
  | .local _ .vmem, ⟨8, _⟩ => ⟨S1024x1536, .f32⟩
  | .local _ .vmem, ⟨9, _⟩ => ⟨S1024x1536, .f32⟩
  | _, _ => ⟨S8192x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_1 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_6 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_cst_7 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst_8 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_cst_9 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_cst_10 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_cst_11 : Ref sig .tc := ⟨.hbm, 73, rfl⟩
abbrev main_v53 : Ref sig .tc := ⟨.hbm, 74, rfl⟩
abbrev main_v54 : Ref sig .tc := ⟨.hbm, 75, rfl⟩
abbrev main_cst_12 : Ref sig .tc := ⟨.hbm, 76, rfl⟩
abbrev main_v55 : Ref sig .tc := ⟨.hbm, 77, rfl⟩
abbrev main_cst_13 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_14 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![7, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  shapeCasts_S10752_S1x10752 : S10752.ShapeCasts S1x10752
  inb_S1024x512_S1024x512_0_0 : ∀ a, (![0, 0] : Fin 2 → Nat) a + S1024x512.size a ≤ S1024x512.size a
  h_S1024x512 : 0 < S1024x512.numel
  bitsLt_bf16_f32 : FTy.bits .bf16 < FTy.bits .f32
  inb_S512x1536_S512x1536_0_0 : ∀ a, (![0, 0] : Fin 2 → Nat) a + S512x1536.size a ≤ S512x1536.size a
  h_S512x1536 : 0 < S512x1536.numel
  inb_S1x1536_S1x1536_0_0 : ∀ a, (![0, 0] : Fin 2 → Nat) a + S1x1536.size a ≤ S1x1536.size a
  h_S1x1536 : 0 < S1x1536.numel
  shapeCasts_S1x1536_S1x1536 : S1x1536.ShapeCasts S1x1536
  broadcasts_S1x1536_S1024x1536 : S1x1536.Broadcasts S1024x1536
  inb_S1024x1536_S1024x1536_0_0 : ∀ a, (![0, 0] : Fin 2 → Nat) a + S1024x1536.size a ≤ S1024x1536.size a
  h_S1024x1536 : 0 < S1024x1536.numel
  bcast_S_S10752 : S_.BroadcastsInDim S10752 (![] : Fin 0 → Fin S10752.rank)
  bcast_S_S2688 : S_.BroadcastsInDim S2688 (![] : Fin 0 → Fin S2688.rank)
  bcast_S10752_S10752x1_0 : S10752.BroadcastsInDim S10752x1 (![0] : Fin 1 → Fin S10752x1.rank)
  transposes_S8192x10752_S10752x8192_1_0 : S8192x10752.Transposes [1, 0] S10752x8192
  bcast_S_S2688x8192 : S_.BroadcastsInDim S2688x8192 (![] : Fin 0 → Fin S2688x8192.rank)
  transposes_S2688x8192_S8192x2688_1_0 : S2688x8192.Transposes [1, 0] S8192x2688
  bcast_S2688_S1x2688_1 : S2688.BroadcastsInDim S1x2688 (![1] : Fin 1 → Fin S1x2688.rank)
  bcast_S1x2688_S8192x2688_0_1 : S1x2688.BroadcastsInDim S8192x2688 (![0, 1] : Fin 2 → Fin S8192x2688.rank)
  bcast_S_S8192x2688 : S_.BroadcastsInDim S8192x2688 (![] : Fin 0 → Fin S8192x2688.rank)
  bcast_S_S256 : S_.BroadcastsInDim S256 (![] : Fin 0 → Fin S256.rank)
  bcast_S2688_S2688x1_0 : S2688.BroadcastsInDim S2688x1 (![0] : Fin 1 → Fin S2688x1.rank)
  transposes_S8192x2688_S2688x8192_1_0 : S8192x2688.Transposes [1, 0] S2688x8192
  bcast_S_S256x8192 : S_.BroadcastsInDim S256x8192 (![] : Fin 0 → Fin S256x8192.rank)
  transposes_S256x8192_S8192x256_1_0 : S256x8192.Transposes [1, 0] S8192x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  reducesTo_S8192x512_S8192_d1 : S8192x512.ReducesTo [1] S8192
  h_S_ : 0 < S_.numel
  bcast_S8192_S8192x1_0 : S8192.BroadcastsInDim S8192x1 (![0] : Fin 1 → Fin S8192x1.rank)
  transposes_S256x512_S512x256_1_0 : S256x512.Transposes [1, 0] S512x256
  bcast_S8192x1_S8192x256_0_1 : S8192x1.BroadcastsInDim S8192x256 (![0, 1] : Fin 2 → Fin S8192x256.rank)
  reducesTo_S256x512_S256_d1 : S256x512.ReducesTo [1] S256
  reducesTo_S8192x256_S8192_d1 : S8192x256.ReducesTo [1] S8192
  bcast_S_S8192 : S_.BroadcastsInDim S8192 (![] : Fin 0 → Fin S8192.rank)
  dot_S1024x512_S512x1536_S1024x1536_1_0_0_1_n_n_wf : DotDims.WF S1024x512 S512x1536 S1024x1536 [1] [0] [0] [1] [] []
  scatter_S2688_S10752x1_S10752_n_0_0_1_wf : ScatterDims.WF S2688 S10752x1 S10752 [] [0] [0] 1
  scatter_S2688x8192_S10752x1_S10752x8192_1_0_0_1_wf : ScatterDims.WF S2688x8192 S10752x1 S10752x8192 [1] [0] [0] 1
  scatter_S256_S2688x1_S2688_n_0_0_1_wf : ScatterDims.WF S256 S2688x1 S2688 [] [0] [0] 1
  scatter_S256x8192_S2688x1_S2688x8192_1_0_0_1_wf : ScatterDims.WF S256x8192 S2688x1 S2688x8192 [1] [0] [0] 1
  dot_S8192x512_S512x256_S8192x256_1_0_0_1_n_n_wf : DotDims.WF S8192x512 S512x256 S8192x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x512.size a ≤ S8192x512.size a
  hwx0_0 : ∀ i : grid0.Coords, EltTy.bits .f32 = 32 ∨ (Rect.block (s := S8192x512) S1024x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1536.size a ≤ S512x10752.size a
  hwx0_1 : ∀ i : grid0.Coords, EltTy.bits .f32 = 32 ∨ (Rect.block (s := S512x10752) S512x1536.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1536.size a ≤ S512x10752.size a
  hwx0_2 : ∀ i : grid0.Coords, EltTy.bits .f32 = 32 ∨ (Rect.block (s := S512x10752) S512x1536.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1536.size a ≤ S1x10752.size a
  hwx0_3 : ∀ i : grid0.Coords, EltTy.bits .f32 = 32 ∨ (Rect.block (s := S1x10752) S1x1536.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x1536.size a ≤ S8192x10752.size a
  hwx0_4 : ∀ i : grid0.Coords, EltTy.bits .f32 = 32 ∨ (Rect.block (s := S8192x10752) S1024x1536.size (cc0_transform_4 i) (hinb0_4 i)).WholeWords (EltTy.packing .f32)

variable [Facts₀]

def dot_S1024x512_S512x1536_S1024x1536_1_0_0_1_n_n : DotDims S1024x512 S512x1536 S1024x1536 where
  lhsContracting := [1]
  rhsContracting := [0]
  lhsNonContracting := [0]
  rhsNonContracting := [1]
  lhsBatch := []
  rhsBatch := []
  wf := dot_S1024x512_S512x1536_S1024x1536_1_0_0_1_n_n_wf
def scatter_S2688_S10752x1_S10752_n_0_0_1 : ScatterDims S2688 S10752x1 S10752 where
  updateWindowDims := []
  insertedWindowDims := [0]
  scatterDimsToOperandDims := [0]
  indexVectorDim := 1
  wf := scatter_S2688_S10752x1_S10752_n_0_0_1_wf
def scatter_S2688x8192_S10752x1_S10752x8192_1_0_0_1 : ScatterDims S2688x8192 S10752x1 S10752x8192 where
  updateWindowDims := [1]
  insertedWindowDims := [0]
  scatterDimsToOperandDims := [0]
  indexVectorDim := 1
  wf := scatter_S2688x8192_S10752x1_S10752x8192_1_0_0_1_wf
def scatter_S256_S2688x1_S2688_n_0_0_1 : ScatterDims S256 S2688x1 S2688 where
  updateWindowDims := []
  insertedWindowDims := [0]
  scatterDimsToOperandDims := [0]
  indexVectorDim := 1
  wf := scatter_S256_S2688x1_S2688_n_0_0_1_wf
def scatter_S256x8192_S2688x1_S2688x8192_1_0_0_1 : ScatterDims S256x8192 S2688x1 S2688x8192 where
  updateWindowDims := [1]
  insertedWindowDims := [0]
  scatterDimsToOperandDims := [0]
  indexVectorDim := 1
  wf := scatter_S256x8192_S2688x1_S2688x8192_1_0_0_1_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf

abbrev win0_0 : Pipeline.Window sig grid0 :=
  Pipeline.Window.ofSpec (Memref.whole main_arg0) S1024x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1536.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x1536.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x1536.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1024x1536.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S8192x512 : Shape := ⟨2, ![8192, 512]⟩
abbrev S512x10752 : Shape := ⟨2, ![512, 10752]⟩
abbrev S10752 : Shape := ⟨1, ![10752]⟩
abbrev S256x512 : Shape := ⟨2, ![256, 512]⟩
abbrev S256 : Shape := ⟨1, ![256]⟩
abbrev S2688 : Shape := ⟨1, ![2688]⟩
abbrev S8192x10752 : Shape := ⟨2, ![8192, 10752]⟩
abbrev S1x10752 : Shape := ⟨2, ![1, 10752]⟩
abbrev S_ : Shape := ⟨0, ![]⟩
abbrev S10752x1 : Shape := ⟨2, ![10752, 1]⟩
abbrev S10752x8192 : Shape := ⟨2, ![10752, 8192]⟩
abbrev S2688x8192 : Shape := ⟨2, ![2688, 8192]⟩
abbrev S8192x2688 : Shape := ⟨2, ![8192, 2688]⟩
abbrev S1x2688 : Shape := ⟨2, ![1, 2688]⟩
abbrev S2688x1 : Shape := ⟨2, ![2688, 1]⟩
abbrev S256x8192 : Shape := ⟨2, ![256, 8192]⟩
abbrev S8192x256 : Shape := ⟨2, ![8192, 256]⟩
abbrev S1x256 : Shape := ⟨2, ![1, 256]⟩
abbrev S8192 : Shape := ⟨1, ![8192]⟩
abbrev S8192x1 : Shape := ⟨2, ![8192, 1]⟩
abbrev S512x256 : Shape := ⟨2, ![512, 256]⟩

abbrev nBuf : Space → Nat
  | .hbm => 95
  | .vmem => 0
  | .smem => 0
  | _ => 0

abbrev bufTy : (tb : Table) → Fin (tcTables nBuf tb) → BufTy
  | .hbm, ⟨0, _⟩ => ⟨S8192x512, .f32⟩
  | .hbm, ⟨1, _⟩ => ⟨S512x10752, .f32⟩
  | .hbm, ⟨2, _⟩ => ⟨S512x10752, .f32⟩
  | .hbm, ⟨3, _⟩ => ⟨S10752, .f32⟩
  | .hbm, ⟨4, _⟩ => ⟨S256x512, .f32⟩
  | .hbm, ⟨5, _⟩ => ⟨S256, .f32⟩
  | .hbm, ⟨6, _⟩ => ⟨S10752, .i32⟩
  | .hbm, ⟨7, _⟩ => ⟨S2688, .i32⟩
  | .hbm, ⟨8, _⟩ => ⟨S512x10752, .f32⟩
  | .hbm, ⟨9, _⟩ => ⟨S8192x10752, .f32⟩
  | .hbm, ⟨10, _⟩ => ⟨S1x10752, .f32⟩
  | .hbm, ⟨11, _⟩ => ⟨S8192x10752, .f32⟩
  | .hbm, ⟨12, _⟩ => ⟨S8192x10752, .f32⟩
  | .hbm, ⟨13, _⟩ => ⟨S8192x10752, .f32⟩
  | .hbm, ⟨14, _⟩ => ⟨S_, .f32⟩
  | .hbm, ⟨15, _⟩ => ⟨S10752, .f32⟩
  | .hbm, ⟨16, _⟩ => ⟨S_, .f32⟩
  | .hbm, ⟨17, _⟩ => ⟨S2688, .f32⟩
  | .hbm, ⟨18, _⟩ => ⟨S10752x1, .i32⟩
  | .hbm, ⟨19, _⟩ => ⟨S2688, .f32⟩
  | .hbm, ⟨20, _⟩ => ⟨S10752x8192, .f32⟩
  | .hbm, ⟨21, _⟩ => ⟨S_, .f32⟩
  | .hbm, ⟨22, _⟩ => ⟨S2688x8192, .f32⟩
  | .hbm, ⟨23, _⟩ => ⟨S10752x1, .i32⟩
  | .hbm, ⟨24, _⟩ => ⟨S2688x8192, .f32⟩
  | .hbm, ⟨25, _⟩ => ⟨S8192x2688, .f32⟩
  | .hbm, ⟨26, _⟩ => ⟨S1x2688, .f32⟩
  | .hbm, ⟨27, _⟩ => ⟨S8192x2688, .f32⟩
  | .hbm, ⟨28, _⟩ => ⟨S8192x2688, .f32⟩
  | .hbm, ⟨29, _⟩ => ⟨S_, .f32⟩
  | .hbm, ⟨30, _⟩ => ⟨S8192x2688, .f32⟩
  | .hbm, ⟨31, _⟩ => ⟨S8192x2688, .f32⟩
  | .hbm, ⟨32, _⟩ => ⟨S8192x2688, .f32⟩
  | .hbm, ⟨33, _⟩ => ⟨S_, .f32⟩
  | .hbm, ⟨34, _⟩ => ⟨S2688, .f32⟩
  | .hbm, ⟨35, _⟩ => ⟨S_, .f32⟩
  | .hbm, ⟨36, _⟩ => ⟨S256, .f32⟩
  | .hbm, ⟨37, _⟩ => ⟨S2688x1, .i32⟩
  | .hbm, ⟨38, _⟩ => ⟨S256, .f32⟩
  | .hbm, ⟨39, _⟩ => ⟨S2688x8192, .f32⟩
  | .hbm, ⟨40, _⟩ => ⟨S_, .f32⟩
  | .hbm, ⟨41, _⟩ => ⟨S256x8192, .f32⟩
  | .hbm, ⟨42, _⟩ => ⟨S2688x1, .i32⟩
  | .hbm, ⟨43, _⟩ => ⟨S256x8192, .f32⟩
  | .hbm, ⟨44, _⟩ => ⟨S8192x256, .f32⟩
  | .hbm, ⟨45, _⟩ => ⟨S1x256, .f32⟩
  | .hbm, ⟨46, _⟩ => ⟨S8192x256, .f32⟩
  | .hbm, ⟨47, _⟩ => ⟨S8192x256, .f32⟩
  | .hbm, ⟨48, _⟩ => ⟨S_, .f32⟩
  | .hbm, ⟨49, _⟩ => ⟨S8192x256, .f32⟩
  | .hbm, ⟨50, _⟩ => ⟨S8192x256, .f32⟩
  | .hbm, ⟨51, _⟩ => ⟨S8192x256, .f32⟩
  | .hbm, ⟨52, _⟩ => ⟨S8192x512, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S512x256, .f32⟩
  | .hbm, ⟨57, _⟩ => ⟨S8192x256, .f32⟩
  | .hbm, ⟨58, _⟩ => ⟨S_, .f32⟩
  | .hbm, ⟨59, _⟩ => ⟨S8192x256, .f32⟩
  | .hbm, ⟨60, _⟩ => ⟨S8192x256, .f32⟩
  | .hbm, ⟨61, _⟩ => ⟨S8192x256, .f32⟩
  | .hbm, ⟨62, _⟩ => ⟨S8192x256, .f32⟩
  | .hbm, ⟨63, _⟩ => ⟨S256x512, .f32⟩
  | .hbm, ⟨64, _⟩ => ⟨S_, .f32⟩
  | .hbm, ⟨65, _⟩ => ⟨S256, .f32⟩
  | .hbm, ⟨66, _⟩ => ⟨S1x256, .f32⟩
  | .hbm, ⟨67, _⟩ => ⟨S8192x256, .f32⟩
  | .hbm, ⟨68, _⟩ => ⟨S8192x256, .f32⟩
  | .hbm, ⟨69, _⟩ => ⟨S_, .f32⟩
  | .hbm, ⟨70, _⟩ => ⟨S8192x256, .f32⟩
  | .hbm, ⟨71, _⟩ => ⟨S8192x256, .f32⟩
  | .hbm, ⟨72, _⟩ => ⟨S256, .f32⟩
  | .hbm, ⟨73, _⟩ => ⟨S1x256, .f32⟩
  | .hbm, ⟨74, _⟩ => ⟨S8192x256, .f32⟩
  | .hbm, ⟨75, _⟩ => ⟨S8192x256, .f32⟩
  | .hbm, ⟨76, _⟩ => ⟨S8192x256, .f32⟩
  | .hbm, ⟨77, _⟩ => ⟨S_, .f32⟩
  | .hbm, ⟨78, _⟩ => ⟨S8192x256, .f32⟩
  | .hbm, ⟨79, _⟩ => ⟨S8192x256, .f32⟩
  | .hbm, ⟨80, _⟩ => ⟨S_, .f32⟩
  | .hbm, ⟨81, _⟩ => ⟨S8192, .f32⟩
  | .hbm, ⟨82, _⟩ => ⟨S_, .f32⟩
  | .hbm, ⟨83, _⟩ => ⟨S8192, .f32⟩
  | .hbm, ⟨84, _⟩ => ⟨S8192, .f32⟩
  | .hbm, ⟨85, _⟩ => ⟨S8192x1, .f32⟩
  | .hbm, ⟨86, _⟩ => ⟨S8192x256, .f32⟩
  | .hbm, ⟨87, _⟩ => ⟨S8192x256, .f32⟩
  | .hbm, ⟨88, _⟩ => ⟨S8192x256, .f32⟩
  | .hbm, ⟨89, _⟩ => ⟨S_, .f32⟩
  | .hbm, ⟨90, _⟩ => ⟨S8192, .f32⟩
  | .hbm, ⟨91, _⟩ => ⟨S8192x1, .f32⟩
  | .hbm, ⟨92, _⟩ => ⟨S8192x256, .f32⟩
  | .hbm, ⟨93, _⟩ => ⟨S8192x256, .f32⟩
  | .hbm, ⟨94, _⟩ => ⟨S8192x256, .f32⟩
  | _, _ => ⟨S8192x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_5 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_6 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_7 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_cst_8 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_cst_9 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_10 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_11 : Ref sig .tc := ⟨.hbm, 77, rfl⟩
abbrev main_v57 : Ref sig .tc := ⟨.hbm, 78, rfl⟩
abbrev main_v58 : Ref sig .tc := ⟨.hbm, 79, rfl⟩
abbrev main_cst_12 : Ref sig .tc := ⟨.hbm, 80, rfl⟩
abbrev main_v59 : Ref sig .tc := ⟨.hbm, 81, rfl⟩
abbrev main_cst_13 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_cst_14 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩

abbrev nD : Nat := 1
abbrev τ : Topo := Topo.v7x

variable {F : FTy → Type} [FloatOps F]

class Facts₀ : Prop where
  bcast_S10752_S1x10752_1 : S10752.BroadcastsInDim S1x10752 (![1] : Fin 1 → Fin S1x10752.rank)
  bcast_S1x10752_S8192x10752_0_1 : S1x10752.BroadcastsInDim S8192x10752 (![0, 1] : Fin 2 → Fin S8192x10752.rank)
  bcast_S_S10752 : S_.BroadcastsInDim S10752 (![] : Fin 0 → Fin S10752.rank)
  bcast_S_S2688 : S_.BroadcastsInDim S2688 (![] : Fin 0 → Fin S2688.rank)
  bcast_S10752_S10752x1_0 : S10752.BroadcastsInDim S10752x1 (![0] : Fin 1 → Fin S10752x1.rank)
  transposes_S8192x10752_S10752x8192_1_0 : S8192x10752.Transposes [1, 0] S10752x8192
  bcast_S_S2688x8192 : S_.BroadcastsInDim S2688x8192 (![] : Fin 0 → Fin S2688x8192.rank)
  transposes_S2688x8192_S8192x2688_1_0 : S2688x8192.Transposes [1, 0] S8192x2688
  bcast_S2688_S1x2688_1 : S2688.BroadcastsInDim S1x2688 (![1] : Fin 1 → Fin S1x2688.rank)
  bcast_S1x2688_S8192x2688_0_1 : S1x2688.BroadcastsInDim S8192x2688 (![0, 1] : Fin 2 → Fin S8192x2688.rank)
  bcast_S_S8192x2688 : S_.BroadcastsInDim S8192x2688 (![] : Fin 0 → Fin S8192x2688.rank)
  bcast_S_S256 : S_.BroadcastsInDim S256 (![] : Fin 0 → Fin S256.rank)
  bcast_S2688_S2688x1_0 : S2688.BroadcastsInDim S2688x1 (![0] : Fin 1 → Fin S2688x1.rank)
  transposes_S8192x2688_S2688x8192_1_0 : S8192x2688.Transposes [1, 0] S2688x8192
  bcast_S_S256x8192 : S_.BroadcastsInDim S256x8192 (![] : Fin 0 → Fin S256x8192.rank)
  transposes_S256x8192_S8192x256_1_0 : S256x8192.Transposes [1, 0] S8192x256
  bcast_S256_S1x256_1 : S256.BroadcastsInDim S1x256 (![1] : Fin 1 → Fin S1x256.rank)
  bcast_S1x256_S8192x256_0_1 : S1x256.BroadcastsInDim S8192x256 (![0, 1] : Fin 2 → Fin S8192x256.rank)
  bcast_S_S8192x256 : S_.BroadcastsInDim S8192x256 (![] : Fin 0 → Fin S8192x256.rank)
  reducesTo_S8192x512_S8192_d1 : S8192x512.ReducesTo [1] S8192
  h_S_ : 0 < S_.numel
  bcast_S8192_S8192x1_0 : S8192.BroadcastsInDim S8192x1 (![0] : Fin 1 → Fin S8192x1.rank)
  transposes_S256x512_S512x256_1_0 : S256x512.Transposes [1, 0] S512x256
  bcast_S8192x1_S8192x256_0_1 : S8192x1.BroadcastsInDim S8192x256 (![0, 1] : Fin 2 → Fin S8192x256.rank)
  reducesTo_S256x512_S256_d1 : S256x512.ReducesTo [1] S256
  reducesTo_S8192x256_S8192_d1 : S8192x256.ReducesTo [1] S8192
  bcast_S_S8192 : S_.BroadcastsInDim S8192 (![] : Fin 0 → Fin S8192.rank)
  dot_S8192x512_S512x10752_S8192x10752_1_0_0_1_n_n_wf : DotDims.WF S8192x512 S512x10752 S8192x10752 [1] [0] [0] [1] [] []
  scatter_S2688_S10752x1_S10752_n_0_0_1_wf : ScatterDims.WF S2688 S10752x1 S10752 [] [0] [0] 1
  scatter_S2688x8192_S10752x1_S10752x8192_1_0_0_1_wf : ScatterDims.WF S2688x8192 S10752x1 S10752x8192 [1] [0] [0] 1
  scatter_S256_S2688x1_S2688_n_0_0_1_wf : ScatterDims.WF S256 S2688x1 S2688 [] [0] [0] 1
  scatter_S256x8192_S2688x1_S2688x8192_1_0_0_1_wf : ScatterDims.WF S256x8192 S2688x1 S2688x8192 [1] [0] [0] 1
  dot_S8192x512_S512x256_S8192x256_1_0_0_1_n_n_wf : DotDims.WF S8192x512 S512x256 S8192x256 [1] [0] [0] [1] [] []

variable [Facts₀]

def dot_S8192x512_S512x10752_S8192x10752_1_0_0_1_n_n : DotDims S8192x512 S512x10752 S8192x10752 where
  lhsContracting := [1]
  rhsContracting := [0]
  lhsNonContracting := [0]
  rhsNonContracting := [1]
  lhsBatch := []
  rhsBatch := []
  wf := dot_S8192x512_S512x10752_S8192x10752_1_0_0_1_n_n_wf
def scatter_S2688_S10752x1_S10752_n_0_0_1 : ScatterDims S2688 S10752x1 S10752 where
  updateWindowDims := []
  insertedWindowDims := [0]
  scatterDimsToOperandDims := [0]
  indexVectorDim := 1
  wf := scatter_S2688_S10752x1_S10752_n_0_0_1_wf
def scatter_S2688x8192_S10752x1_S10752x8192_1_0_0_1 : ScatterDims S2688x8192 S10752x1 S10752x8192 where
  updateWindowDims := [1]
  insertedWindowDims := [0]
  scatterDimsToOperandDims := [0]
  indexVectorDim := 1
  wf := scatter_S2688x8192_S10752x1_S10752x8192_1_0_0_1_wf
def scatter_S256_S2688x1_S2688_n_0_0_1 : ScatterDims S256 S2688x1 S2688 where
  updateWindowDims := []
  insertedWindowDims := [0]
  scatterDimsToOperandDims := [0]
  indexVectorDim := 1
  wf := scatter_S256_S2688x1_S2688_n_0_0_1_wf
def scatter_S256x8192_S2688x1_S2688x8192_1_0_0_1 : ScatterDims S256x8192 S2688x1 S2688x8192 where
  updateWindowDims := [1]
  insertedWindowDims := [0]
  scatterDimsToOperandDims := [0]
  indexVectorDim := 1
  wf := scatter_S256x8192_S2688x1_S2688x8192_1_0_0_1_wf
def dot_S8192x512_S512x256_S8192x256_1_0_0_1_n_n : DotDims S8192x512 S512x256 S8192x256 where
  lhsContracting := [1]
  rhsContracting := [0]
  lhsNonContracting := [0]
  rhsNonContracting := [1]
  lhsBatch := []
  rhsBatch := []
  wf := dot_S8192x512_S512x256_S8192x256_1_0_0_1_n_n_wf

class Facts : Prop extends Facts₀ where

variable [Facts]
-- ==== Proof.KHost.lean ====
/-
  The host side of `Kernel`'s run: @main is one host line (the bias reshaped to a row), the literal
  layer's region, and 81 host lines after it. This module records what the region finds in each buffer
  (the launch contents, with the reshaped bias in its own buffer), that the later lines touch only
  unscoped buffers, allocate nothing and write none of the five arrays the region stages, and that no
  host line writes an argument array: each argument ends as launched.
-/
import proofs.«163715_j26259430048006_1_alg».proof.Proof.Gen.Kernel.Launch
import proofs.«163715_j26259430048006_1_alg».proof.Proof.Gen.Kernel.Skeleton
import proofs.«163715_j26259430048006_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
-- the 81-line list of later host lines: each statement over it elaborates the whole list
set_option maxHeartbeats 40000000

noncomputable section

namespace Cert.Kernel.Host

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core `c`'s buffer contents when the region is entered: the launch contents after the one host line before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- A list of host lines, none of which writes the reference in the goal: one conjunct per line, each line writing
    only its own result buffer, which is another reference. -/
local macro "no_line_writes" l:ident : tactic => `(tactic| (
  simp only [$l:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host line before the region, the region, and the later lines: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The later lines keep to the unscoped buffers and leave the staged arrays alone -/

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- No later line writes the batch `x`, -/
theorem later_keeps_arg0 : ∀ op ∈ (hostOps1 : List (HloOp τ sig (Elt F))), Proc.devRef .tc main_arg0 ∉ op.writes :=
  List.forall_iff_forall_mem.mp (by no_line_writes hostOps1)
/-- the weight, -/
theorem later_keeps_arg1 : ∀ op ∈ (hostOps1 : List (HloOp τ sig (Elt F))), Proc.devRef .tc main_arg1 ∉ op.writes :=
  List.forall_iff_forall_mem.mp (by no_line_writes hostOps1)
/-- the mask, -/
theorem later_keeps_arg2 : ∀ op ∈ (hostOps1 : List (HloOp τ sig (Elt F))), Proc.devRef .tc main_arg2 ∉ op.writes :=
  List.forall_iff_forall_mem.mp (by no_line_writes hostOps1)
/-- the bias, -/
theorem later_keeps_arg3 : ∀ op ∈ (hostOps1 : List (HloOp τ sig (Elt F))), Proc.devRef .tc main_arg3 ∉ op.writes :=
  List.forall_iff_forall_mem.mp (by no_line_writes hostOps1)
/-- the centres, -/
theorem later_keeps_arg4 : ∀ op ∈ (hostOps1 : List (HloOp τ sig (Elt F))), Proc.devRef .tc main_arg4 ∉ op.writes :=
  List.forall_iff_forall_mem.mp (by no_line_writes hostOps1)
/-- the widths, -/
theorem later_keeps_arg5 : ∀ op ∈ (hostOps1 : List (HloOp τ sig (Elt F))), Proc.devRef .tc main_arg5 ∉ op.writes :=
  List.forall_iff_forall_mem.mp (by no_line_writes hostOps1)
/-- the literal-to-conjunction table, -/
theorem later_keeps_arg6 : ∀ op ∈ (hostOps1 : List (HloOp τ sig (Elt F))), Proc.devRef .tc main_arg6 ∉ op.writes :=
  List.forall_iff_forall_mem.mp (by no_line_writes hostOps1)
/-- the conjunction-to-formula table, -/
theorem later_keeps_arg7 : ∀ op ∈ (hostOps1 : List (HloOp τ sig (Elt F))), Proc.devRef .tc main_arg7 ∉ op.writes :=
  List.forall_iff_forall_mem.mp (by no_line_writes hostOps1)
/-- the bias row, -/
theorem later_keeps_v0 : ∀ op ∈ (hostOps1 : List (HloOp τ sig (Elt F))), Proc.devRef .tc main_v0 ∉ op.writes :=
  List.forall_iff_forall_mem.mp (by no_line_writes hostOps1)
/-- or the literal layer. -/
theorem later_keeps_v1 : ∀ op ∈ (hostOps1 : List (HloOp τ sig (Elt F))), Proc.devRef .tc main_v1 ∉ op.writes :=
  List.forall_iff_forall_mem.mp (by no_line_writes hostOps1)

/-- The five staged arrays are `x`, the weight, the mask, the bias row and the literal layer: none is written later. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  fin_cases w
  · exact later_keeps_arg0 op hop
  · exact later_keeps_arg1 op hop
  · exact later_keeps_arg2 op hop
  · exact later_keeps_v0 op hop
  · exact later_keeps_v1 op hop

/-! ## The arguments as the region finds them: as launched -/

theorem V_main_arg0 (c : Dev nD) : V m c main_arg0 = m ((c : Thread nD τ).loc main_arg0) :=
  StableHlo.after_of_forall_not_mem (b := Proc.devRef .tc main_arg0) _ _ (List.forall_iff_forall_mem.mp (by no_line_writes hostOps0))
theorem V_main_arg1 (c : Dev nD) : V m c main_arg1 = m ((c : Thread nD τ).loc main_arg1) :=
  StableHlo.after_of_forall_not_mem (b := Proc.devRef .tc main_arg1) _ _ (List.forall_iff_forall_mem.mp (by no_line_writes hostOps0))
theorem V_main_arg2 (c : Dev nD) : V m c main_arg2 = m ((c : Thread nD τ).loc main_arg2) :=
  StableHlo.after_of_forall_not_mem (b := Proc.devRef .tc main_arg2) _ _ (List.forall_iff_forall_mem.mp (by no_line_writes hostOps0))
theorem V_main_arg3 (c : Dev nD) : V m c main_arg3 = m ((c : Thread nD τ).loc main_arg3) :=
  StableHlo.after_of_forall_not_mem (b := Proc.devRef .tc main_arg3) _ _ (List.forall_iff_forall_mem.mp (by no_line_writes hostOps0))
theorem V_main_arg4 (c : Dev nD) : V m c main_arg4 = m ((c : Thread nD τ).loc main_arg4) :=
  StableHlo.after_of_forall_not_mem (b := Proc.devRef .tc main_arg4) _ _ (List.forall_iff_forall_mem.mp (by no_line_writes hostOps0))
theorem V_main_arg5 (c : Dev nD) : V m c main_arg5 = m ((c : Thread nD τ).loc main_arg5) :=
  StableHlo.after_of_forall_not_mem (b := Proc.devRef .tc main_arg5) _ _ (List.forall_iff_forall_mem.mp (by no_line_writes hostOps0))
theorem V_main_arg6 (c : Dev nD) : V m c main_arg6 = m ((c : Thread nD τ).loc main_arg6) :=
  StableHlo.after_of_forall_not_mem (b := Proc.devRef .tc main_arg6) _ _ (List.forall_iff_forall_mem.mp (by no_line_writes hostOps0))
theorem V_main_arg7 (c : Dev nD) : V m c main_arg7 = m ((c : Thread nD τ).loc main_arg7) :=
  StableHlo.after_of_forall_not_mem (b := Proc.devRef .tc main_arg7) _ _ (List.forall_iff_forall_mem.mp (by no_line_writes hostOps0))

/-! ## The arguments no window stages, after the later lines: as launched -/

section Kept
variable (dats : (p : Fin _) → (c : Dev nD) → Dat τ (Elt F) Unit ℕ (UR sig nD τ) ℕ (cfgs p) c)

theorem W_main_arg3 (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (by
      simp only [List.flatten_cons, List.flatten_nil, List.append_nil]; exact later_keeps_arg3),
    Pipeline.withArrays_of_ne _ c (V0 m c) _ main_arg3 (by exact (by decide : ∀ w, Pipeline.arrRef spec0 w ≠ main_arg3))]
  exact V_main_arg3 m c
theorem W_main_arg4 (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (by
      simp only [List.flatten_cons, List.flatten_nil, List.append_nil]; exact later_keeps_arg4),
    Pipeline.withArrays_of_ne _ c (V0 m c) _ main_arg4 (by exact (by decide : ∀ w, Pipeline.arrRef spec0 w ≠ main_arg4))]
  exact V_main_arg4 m c
theorem W_main_arg5 (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (by
      simp only [List.flatten_cons, List.flatten_nil, List.append_nil]; exact later_keeps_arg5),
    Pipeline.withArrays_of_ne _ c (V0 m c) _ main_arg5 (by exact (by decide : ∀ w, Pipeline.arrRef spec0 w ≠ main_arg5))]
  exact V_main_arg5 m c
theorem W_main_arg6 (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (by
      simp only [List.flatten_cons, List.flatten_nil, List.append_nil]; exact later_keeps_arg6),
    Pipeline.withArrays_of_ne _ c (V0 m c) _ main_arg6 (by exact (by decide : ∀ w, Pipeline.arrRef spec0 w ≠ main_arg6))]
  exact V_main_arg6 m c
theorem W_main_arg7 (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (by
      simp only [List.flatten_cons, List.flatten_nil, List.append_nil]; exact later_keeps_arg7),
    Pipeline.withArrays_of_ne _ c (V0 m c) _ main_arg7 (by exact (by decide : ∀ w, Pipeline.arrRef spec0 w ≠ main_arg7))]
  exact V_main_arg7 m c

end Kept

end Cert.Kernel.Host

end
-- ==== Proof.KBody.lean ====
/-
  The run of `Kernel`: the literal layer's region on its 7 x 8 grid, and the frame.

  At grid point `t` the body loads a 1024-row block of `x`, a 1536-column block of the weight and of the
  mask, the matching 1536 entries of the bias row, and stores one 1024 x 1536 block of the literal layer:
  the skeleton's payload of the four loaded blocks. The output buffer is overwritten whole, so what it
  holds after the body is that payload; the input buffers hold their blocks whether or not the point
  fetched them. With this proof data the library's frame run around a region applies, and every
  argument array ends as launched: the three staged ones because an input window's array is never
  written, the other five because no host line writes them.
-/
import proofs.«163715_j26259430048006_1_alg».proof.Proof.KHost

set_option maxRecDepth 16384
-- statements over the 81-line list of later host lines elaborate the whole list
set_option maxHeartbeats 40000000

noncomputable section

namespace Cert.Kernel.Body

open Cert.Kernel Cert.Kernel.Gen Cert.Kernel.Host
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched the block index has not moved since the last fetch, and the body leaves the buffer as it found it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run whose final state has the staged arrays at what the proof data computes and every other unscoped buffer
    as the later lines leave it: `x`, the weight and the mask are input windows' arrays, so they end at their entry
    contents, which are the launch contents; the bias, the centres, the widths and the two index tables bypass the
    region and no later line writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c)⟩) h

/-! ## The body's accesses: each the whole of its buffer -/

abbrev r0_0 : Rect S1024x512 := Rect.unit (s := S1024x512) ![0, 0] S1024x512.size inb_S1024x512_S1024x512_0_0
abbrev r0_1 : Rect S512x1536 := Rect.unit (s := S512x1536) ![0, 0] S512x1536.size inb_S512x1536_S512x1536_0_0
abbrev r0_3 : Rect S1x1536 := Rect.unit (s := S1x1536) ![0, 0] S1x1536.size inb_S1x1536_S1x1536_0_0
abbrev r0_4 : Rect S1024x1536 := Rect.unit (s := S1024x1536) ![0, 0] S1024x1536.size inb_S1024x1536_S1024x1536_0_0

/-! ## What the body leaves in the output buffer -/

/-- The output buffer after the body, from the four input blocks: its one store, of the skeleton's payload. -/
def out0_4 (x0 : Vec F S1024x512 .f32) (x1 : Vec F S512x1536 .f32) (x2 : Vec F S512x1536 .f32) (x3 : Vec F S1x1536 .f32) : Vec F S1024x1536 .f32 :=
  View.canon [⟨r0_4, k0_pay1 (View.ld x0 r0_0) (View.ld x1 r0_1) (View.ld x2 r0_1) (View.ld x3 r0_3)⟩]

/-- The one store covers the buffer. -/
theorem cover0_4 (p0 : Vec F S1024x1536 .f32) (y : S1024x1536.Idx) :
    ∃ pc ∈ ([⟨r0_4, p0⟩] : List (View.Piece (Elt F) S1024x1536 .f32)), y ∈ pc.1.set :=
  View.cover_of_tiled [⟨r0_4, p0⟩] S1024x1536.size (by rfl) y

/-! ## The body's triple -/

set_option maxHeartbeats 1000000 in
/-- The body on whole staging buffers, the inputs' at contents `xW` and the output's at anything, runs to the
    continuation holding the inputs' as they were and the output's at `out0_4` of the inputs'. -/
theorem sound_kernel (c : Dev nD) (E : Set ℕ) (i : grid0.Coords)
    (arg2 : Memref sig .tc .vmem S1024x512 .f32) (harg2 : arg2.IsWhole) (arg3 : Memref sig .tc .vmem S512x1536 .f32) (harg3 : arg3.IsWhole)
    (arg4 : Memref sig .tc .vmem S512x1536 .f32) (harg4 : arg4.IsWhole) (arg5 : Memref sig .tc .vmem S1x1536 .f32) (harg5 : arg5.IsWhole)
    (arg6 : Memref sig .tc .vmem S1024x1536 .f32) (harg6 : arg6.IsWhole)
    (x0 : Vec F S1024x512 .f32) (x1 : Vec F S512x1536 .f32) (x2 : Vec F S512x1536 .f32) (x3 : Vec F S1x1536 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__literal_kernel i arg2 harg2 arg3 harg3 arg4 harg4 arg5 harg5 arg6 harg6) K := by
  simp only [cc0__literal_kernel_eq_skeleton]; unfold cc0__literal_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The proof data -/

/-- On core `c`: the arrays as the region finds them; after the body at point `t` each input buffer at its block and
    the output buffer at `out0_4` of the four input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the input buffers hold their blocks, so the triple applies; the invariant and the core's
    duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any float values, from any memory with zero counters: every weakly fair execution of @main on the TensorCores
    terminates, and every final state has each staged array at what the proof data computes and every other unscoped
    buffer as the later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main terminates, nothing faults, and the eight argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.Kernel.Body

end
-- ==== Proof.KIHost.lean ====
/-
  The host side of `KernelIdeal`'s run: @main is one host line (the bias reshaped to a row), the literal
  layer's region, and 81 host lines after it. This module records what the region finds in each buffer
  (the launch contents, with the reshaped bias in its own buffer), that the later lines touch only
  unscoped buffers, allocate nothing and write none of the five arrays the region stages, and that no
  host line writes an argument array: each argument ends as launched.
-/
import proofs.«163715_j26259430048006_1_alg».proof.Proof.Gen.KernelIdeal.Launch
import proofs.«163715_j26259430048006_1_alg».proof.Proof.Gen.KernelIdeal.Skeleton
import proofs.«163715_j26259430048006_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384
-- the 81-line list of later host lines: each statement over it elaborates the whole list
set_option maxHeartbeats 40000000

noncomputable section

namespace Cert.KernelIdeal.Host

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## What the region finds -/

/-- Core `c`'s buffer contents when the region is entered: the launch contents after the one host line before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- A list of host lines, none of which writes the reference in the goal: one conjunct per line, each line writing
    only its own result buffer, which is another reference. -/
local macro "no_line_writes" l:ident : tactic => `(tactic| (
  simp only [$l:ident, List.flatten_cons, List.flatten_nil, List.append_nil, List.cons_append, List.nil_append, List.Forall,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

/-- @main is the host line before the region, the region, and the later lines: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact hostOps0_fresh) main_chain

/-! ## The later lines keep to the unscoped buffers and leave the staged arrays alone -/

theorem sfx_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)

theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp hostOps1_fresh) op hop

/-- No later line writes the batch `x`, -/
theorem later_keeps_arg0 : ∀ op ∈ (hostOps1 : List (HloOp τ sig (Elt F))), Proc.devRef .tc main_arg0 ∉ op.writes :=
  List.forall_iff_forall_mem.mp (by no_line_writes hostOps1)
/-- the weight, -/
theorem later_keeps_arg1 : ∀ op ∈ (hostOps1 : List (HloOp τ sig (Elt F))), Proc.devRef .tc main_arg1 ∉ op.writes :=
  List.forall_iff_forall_mem.mp (by no_line_writes hostOps1)
/-- the mask, -/
theorem later_keeps_arg2 : ∀ op ∈ (hostOps1 : List (HloOp τ sig (Elt F))), Proc.devRef .tc main_arg2 ∉ op.writes :=
  List.forall_iff_forall_mem.mp (by no_line_writes hostOps1)
/-- the bias, -/
theorem later_keeps_arg3 : ∀ op ∈ (hostOps1 : List (HloOp τ sig (Elt F))), Proc.devRef .tc main_arg3 ∉ op.writes :=
  List.forall_iff_forall_mem.mp (by no_line_writes hostOps1)
/-- the centres, -/
theorem later_keeps_arg4 : ∀ op ∈ (hostOps1 : List (HloOp τ sig (Elt F))), Proc.devRef .tc main_arg4 ∉ op.writes :=
  List.forall_iff_forall_mem.mp (by no_line_writes hostOps1)
/-- the widths, -/
theorem later_keeps_arg5 : ∀ op ∈ (hostOps1 : List (HloOp τ sig (Elt F))), Proc.devRef .tc main_arg5 ∉ op.writes :=
  List.forall_iff_forall_mem.mp (by no_line_writes hostOps1)
/-- the literal-to-conjunction table, -/
theorem later_keeps_arg6 : ∀ op ∈ (hostOps1 : List (HloOp τ sig (Elt F))), Proc.devRef .tc main_arg6 ∉ op.writes :=
  List.forall_iff_forall_mem.mp (by no_line_writes hostOps1)
/-- the conjunction-to-formula table, -/
theorem later_keeps_arg7 : ∀ op ∈ (hostOps1 : List (HloOp τ sig (Elt F))), Proc.devRef .tc main_arg7 ∉ op.writes :=
  List.forall_iff_forall_mem.mp (by no_line_writes hostOps1)
/-- the bias row, -/
theorem later_keeps_v0 : ∀ op ∈ (hostOps1 : List (HloOp τ sig (Elt F))), Proc.devRef .tc main_v0 ∉ op.writes :=
  List.forall_iff_forall_mem.mp (by no_line_writes hostOps1)
/-- or the literal layer. -/
theorem later_keeps_v1 : ∀ op ∈ (hostOps1 : List (HloOp τ sig (Elt F))), Proc.devRef .tc main_v1 ∉ op.writes :=
  List.forall_iff_forall_mem.mp (by no_line_writes hostOps1)

/-- The five staged arrays are `x`, the weight, the mask, the bias row and the literal layer: none is written later. -/
theorem sfx_keeps : ∀ ops ∈ ([hostOps1] : List (List (HloOp τ sig (Elt F)))), ∀ op ∈ ops,
    ∀ w, Proc.devRef .tc (Pipeline.arrRef spec0 w) ∉ op.writes := by
  intro ops hops op hop w
  simp only [List.mem_cons, List.mem_nil_iff, or_false] at hops
  rcases hops with rfl
  fin_cases w
  · exact later_keeps_arg0 op hop
  · exact later_keeps_arg1 op hop
  · exact later_keeps_arg2 op hop
  · exact later_keeps_v0 op hop
  · exact later_keeps_v1 op hop

/-! ## The arguments as the region finds them: as launched -/

theorem V_main_arg0 (c : Dev nD) : V m c main_arg0 = m ((c : Thread nD τ).loc main_arg0) :=
  StableHlo.after_of_forall_not_mem (b := Proc.devRef .tc main_arg0) _ _ (List.forall_iff_forall_mem.mp (by no_line_writes hostOps0))
theorem V_main_arg1 (c : Dev nD) : V m c main_arg1 = m ((c : Thread nD τ).loc main_arg1) :=
  StableHlo.after_of_forall_not_mem (b := Proc.devRef .tc main_arg1) _ _ (List.forall_iff_forall_mem.mp (by no_line_writes hostOps0))
theorem V_main_arg2 (c : Dev nD) : V m c main_arg2 = m ((c : Thread nD τ).loc main_arg2) :=
  StableHlo.after_of_forall_not_mem (b := Proc.devRef .tc main_arg2) _ _ (List.forall_iff_forall_mem.mp (by no_line_writes hostOps0))
theorem V_main_arg3 (c : Dev nD) : V m c main_arg3 = m ((c : Thread nD τ).loc main_arg3) :=
  StableHlo.after_of_forall_not_mem (b := Proc.devRef .tc main_arg3) _ _ (List.forall_iff_forall_mem.mp (by no_line_writes hostOps0))
theorem V_main_arg4 (c : Dev nD) : V m c main_arg4 = m ((c : Thread nD τ).loc main_arg4) :=
  StableHlo.after_of_forall_not_mem (b := Proc.devRef .tc main_arg4) _ _ (List.forall_iff_forall_mem.mp (by no_line_writes hostOps0))
theorem V_main_arg5 (c : Dev nD) : V m c main_arg5 = m ((c : Thread nD τ).loc main_arg5) :=
  StableHlo.after_of_forall_not_mem (b := Proc.devRef .tc main_arg5) _ _ (List.forall_iff_forall_mem.mp (by no_line_writes hostOps0))
theorem V_main_arg6 (c : Dev nD) : V m c main_arg6 = m ((c : Thread nD τ).loc main_arg6) :=
  StableHlo.after_of_forall_not_mem (b := Proc.devRef .tc main_arg6) _ _ (List.forall_iff_forall_mem.mp (by no_line_writes hostOps0))
theorem V_main_arg7 (c : Dev nD) : V m c main_arg7 = m ((c : Thread nD τ).loc main_arg7) :=
  StableHlo.after_of_forall_not_mem (b := Proc.devRef .tc main_arg7) _ _ (List.forall_iff_forall_mem.mp (by no_line_writes hostOps0))

/-! ## The arguments no window stages, after the later lines: as launched -/

section Kept
variable (dats : (p : Fin _) → (c : Dev nD) → Dat τ (Elt F) Unit ℕ (UR sig nD τ) ℕ (cfgs p) c)

theorem W_main_arg3 (c : Dev nD) :
    Pipeline.afterTail₀ cfgs dats 0 (V0 m) [hostOps1] c main_arg3 = m ((c : Thread nD τ).loc main_arg3) := by
  unfold Pipeline.afterTail₀
  rw [StableHlo.after_of_forall_not_mem (b := Proc.devRef .tc main_arg3) _ _ (by
      simp only [List.flatten_cons, List.flatten_nil, List.append_nil]; exact later_keeps_arg3),
    Pipeline.withArrays_of_ne _ c (V0 m c) _ main_arg3 (by exact (by decide : ∀ w, Pipeline.arrRef spec0 w ≠ main_arg3))]
  exact V_main_arg3 m c
theorem W_main_arg4 (c : Dev nD) :
    Pipeline.afterTail₀ cfgs dats 0 (V0 m) [hostOps1] c main_arg4 = m ((c : Thread nD τ).loc main_arg4) := by
  unfold Pipeline.afterTail₀
  rw [StableHlo.after_of_forall_not_mem (b := Proc.devRef .tc main_arg4) _ _ (by
      simp only [List.flatten_cons, List.flatten_nil, List.append_nil]; exact later_keeps_arg4),
    Pipeline.withArrays_of_ne _ c (V0 m c) _ main_arg4 (by exact (by decide : ∀ w, Pipeline.arrRef spec0 w ≠ main_arg4))]
  exact V_main_arg4 m c
theorem W_main_arg5 (c : Dev nD) :
    Pipeline.afterTail₀ cfgs dats 0 (V0 m) [hostOps1] c main_arg5 = m ((c : Thread nD τ).loc main_arg5) := by
  unfold Pipeline.afterTail₀
  rw [StableHlo.after_of_forall_not_mem (b := Proc.devRef .tc main_arg5) _ _ (by
      simp only [List.flatten_cons, List.flatten_nil, List.append_nil]; exact later_keeps_arg5),
    Pipeline.withArrays_of_ne _ c (V0 m c) _ main_arg5 (by exact (by decide : ∀ w, Pipeline.arrRef spec0 w ≠ main_arg5))]
  exact V_main_arg5 m c
theorem W_main_arg6 (c : Dev nD) :
    Pipeline.afterTail₀ cfgs dats 0 (V0 m) [hostOps1] c main_arg6 = m ((c : Thread nD τ).loc main_arg6) := by
  unfold Pipeline.afterTail₀
  rw [StableHlo.after_of_forall_not_mem (b := Proc.devRef .tc main_arg6) _ _ (by
      simp only [List.flatten_cons, List.flatten_nil, List.append_nil]; exact later_keeps_arg6),
    Pipeline.withArrays_of_ne _ c (V0 m c) _ main_arg6 (by exact (by decide : ∀ w, Pipeline.arrRef spec0 w ≠ main_arg6))]
  exact V_main_arg6 m c
theorem W_main_arg7 (c : Dev nD) :
    Pipeline.afterTail₀ cfgs dats 0 (V0 m) [hostOps1] c main_arg7 = m ((c : Thread nD τ).loc main_arg7) := by
  unfold Pipeline.afterTail₀
  rw [StableHlo.after_of_forall_not_mem (b := Proc.devRef .tc main_arg7) _ _ (by
      simp only [List.flatten_cons, List.flatten_nil, List.append_nil]; exact later_keeps_arg7),
    Pipeline.withArrays_of_ne _ c (V0 m c) _ main_arg7 (by exact (by decide : ∀ w, Pipeline.arrRef spec0 w ≠ main_arg7))]
  exact V_main_arg7 m c

end Kept

end Cert.KernelIdeal.Host

end
-- ==== Proof.KIBody.lean ====
/-
  The run of `KernelIdeal`: the literal layer's region on its 7 x 8 grid, and the frame.

  At grid point `t` the body loads a 1024-row block of `x`, a 1536-column block of the weight and of the
  mask, the matching 1536 entries of the bias row, and stores one 1024 x 1536 block of the literal layer:
  the skeleton's payload of the four loaded blocks. The output buffer is overwritten whole, so what it
  holds after the body is that payload; the input buffers hold their blocks whether or not the point
  fetched them. With this proof data the library's frame run around a region applies, and every
  argument array ends as launched: the three staged ones because an input window's array is never
  written, the other five because no host line writes them.
-/
import proofs.«163715_j26259430048006_1_alg».proof.Proof.KIHost

set_option maxRecDepth 16384
-- statements over the 81-line list of later host lines elaborate the whole list
set_option maxHeartbeats 40000000

noncomputable section

namespace Cert.KernelIdeal.Body

open Cert.KernelIdeal Cert.KernelIdeal.Gen Cert.KernelIdeal.Host
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, fetched there or not: where it is not
    fetched the block index has not moved since the last fetch, and the body leaves the buffer as it found it. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- From a run whose final state has the staged arrays at what the proof data computes and every other unscoped buffer
    as the later lines leave it: `x`, the weight and the mask are input windows' arrays, so they end at their entry
    contents, which are the launch contents; the bias, the centres, the widths and the two index tables bypass the
    region and no later line writes them. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (Pipeline.afterTail₀ cfgs dats 0 (V0 m) [hostOps1]))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (W_main_arg3 m dats c),
      ((h c).2 main_arg4 (Pipeline.mem_restRefs_of main_arg4 (by decide) (by decide))).trans (W_main_arg4 m dats c),
      ((h c).2 main_arg5 (Pipeline.mem_restRefs_of main_arg5 (by decide) (by decide))).trans (W_main_arg5 m dats c),
      ((h c).2 main_arg6 (Pipeline.mem_restRefs_of main_arg6 (by decide) (by decide))).trans (W_main_arg6 m dats c),
      ((h c).2 main_arg7 (Pipeline.mem_restRefs_of main_arg7 (by decide) (by decide))).trans (W_main_arg7 m dats c)⟩) h

/-! ## The body's accesses: each the whole of its buffer -/

abbrev r0_0 : Rect S1024x512 := Rect.unit (s := S1024x512) ![0, 0] S1024x512.size inb_S1024x512_S1024x512_0_0
abbrev r0_1 : Rect S512x1536 := Rect.unit (s := S512x1536) ![0, 0] S512x1536.size inb_S512x1536_S512x1536_0_0
abbrev r0_3 : Rect S1x1536 := Rect.unit (s := S1x1536) ![0, 0] S1x1536.size inb_S1x1536_S1x1536_0_0
abbrev r0_4 : Rect S1024x1536 := Rect.unit (s := S1024x1536) ![0, 0] S1024x1536.size inb_S1024x1536_S1024x1536_0_0

/-! ## What the body leaves in the output buffer -/

/-- The output buffer after the body, from the four input blocks: its one store, of the skeleton's payload. -/
def out0_4 (x0 : Vec F S1024x512 .f32) (x1 : Vec F S512x1536 .f32) (x2 : Vec F S512x1536 .f32) (x3 : Vec F S1x1536 .f32) : Vec F S1024x1536 .f32 :=
  View.canon [⟨r0_4, k0_pay1 (View.ld x0 r0_0) (View.ld x1 r0_1) (View.ld x2 r0_1) (View.ld x3 r0_3)⟩]

/-- The one store covers the buffer. -/
theorem cover0_4 (p0 : Vec F S1024x1536 .f32) (y : S1024x1536.Idx) :
    ∃ pc ∈ ([⟨r0_4, p0⟩] : List (View.Piece (Elt F) S1024x1536 .f32)), y ∈ pc.1.set :=
  View.cover_of_tiled [⟨r0_4, p0⟩] S1024x1536.size (by rfl) y

/-! ## The body's triple -/

set_option maxHeartbeats 1000000 in
/-- The body on whole staging buffers, the inputs' at contents `xW` and the output's at anything, runs to the
    continuation holding the inputs' as they were and the output's at `out0_4` of the inputs'. -/
theorem sound_kernel (c : Dev nD) (E : Set ℕ) (i : grid0.Coords)
    (arg2 : Memref sig .tc .vmem S1024x512 .f32) (harg2 : arg2.IsWhole) (arg3 : Memref sig .tc .vmem S512x1536 .f32) (harg3 : arg3.IsWhole)
    (arg4 : Memref sig .tc .vmem S512x1536 .f32) (harg4 : arg4.IsWhole) (arg5 : Memref sig .tc .vmem S1x1536 .f32) (harg5 : arg5.IsWhole)
    (arg6 : Memref sig .tc .vmem S1024x1536 .f32) (harg6 : arg6.IsWhole)
    (x0 : Vec F S1024x512 .f32) (x1 : Vec F S512x1536 .f32) (x2 : Vec F S512x1536 .f32) (x3 : Vec F S1x1536 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ d, owns (c : Thread nD τ) arg6 fullShare d)
        ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare (out0_4 x0 x1 x2 x3)) -∗ K ⟨⟩))
      ⊢ wp frame (wpE (defs₀ (F := F)) Variants.none c none) E (cc0__literal_kernel i arg2 harg2 arg3 harg3 arg4 harg4 arg5 harg5 arg6 harg6) K := by
  simp only [cc0__literal_kernel_eq_skeleton]; unfold cc0__literal_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-! ## The proof data -/

/-- On core `c`: the arrays as the region finds them; after the body at point `t` each input buffer at its block and
    the output buffer at `out0_4` of the four input blocks; the invariant the scoped rest and the generator register,
    untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => out0_4 (iblk m c 0 t) (iblk m c 1 t) (iblk m c 2 t) (iblk m c 3 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) :
    (dats m 0 c).after 4 t = out0_4 (iblk m c 0 t) (iblk m c 1 t) (iblk m c 2 t) (iblk m c 3 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body at any point: the input buffers hold their blocks, so the triple applies; the invariant and the core's
    duties pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).Φ t.succ = (dats m 0 c).Φ t.castSucc from rfl,
    show (dats m 0 c).owesAt () t.succ = (dats m 0 c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel c Set.univ (grid0.coords t) _ _ _ _ _ _ _ _ _ _ (iblk m c 0 t) (iblk m c 1 t) (iblk m c 2 t) (iblk m c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- For any float values, from any memory with zero counters: every weakly fair execution of @main on the TensorCores
    terminates, and every final state has each staged array at what the proof data computes and every other unscoped
    buffer as the later lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The frame: @main terminates, nothing faults, and the eight argument arrays end as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

end Cert.KernelIdeal.Body

end
-- ==== Proof.KerPayload.lean ====
/-
  The kernel body's one stored value, read at an index.

  The body multiplies the weight block by its mask block entry by entry, contracts the x block's 512
  columns against the product's 512 rows into a zero accumulator, adds the one-row bias block to every
  row, and applies tanh.  On the extended reals the two format changes are the identity, so entry
  (p, q) of the stored block is
      tanh ( Σ_k  x[p,k] · (w[k,q] · m[k,q])  +  b[0,q] ).
-/
import proofs.«163715_j26259430048006_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KerLit

open Cert.KernelIdeal Cert.KernelIdeal.Gen Idealize.ShloMosaic Idealize.ShloMosaic.ValueIdx

/-- The left operand's index for result entry (p, q) and contracted position k is (p, k): axis 0 is the
    result's row, axis 1 the contracted one. -/
theorem lhs_at (p : Fin 1024) (q : Fin 1536) (k : Fin 512) :
    dot_S1024x512_S512x1536_S1024x1536_1_0_0_1_n_n.lhsIdx (ix2 p q) ((contrEquiv1 dot_S1024x512_S512x1536_S1024x1536_1_0_0_1_n_n 512 rfl rfl).symm k) = ix2 p k := by
  have hk := contrEquiv1_symm_val dot_S1024x512_S512x1536_S1024x1536_1_0_0_1_n_n 512 rfl rfl k
  refine funext fun a => Fin.ext ?_
  match a with
  | ⟨0, _⟩ =>
    show (dot_S1024x512_S512x1536_S1024x1536_1_0_0_1_n_n.lhsIdx (ix2 p q) _ 0).val = p.val
    unfold DotDims.lhsIdx
    rw [dif_neg (show ¬(0 : Fin S1024x512.rank) ∈ dot_S1024x512_S512x1536_S1024x1536_1_0_0_1_n_n.lhsBatch by decide),
      dif_pos (show (0 : Fin S1024x512.rank) ∈ dot_S1024x512_S512x1536_S1024x1536_1_0_0_1_n_n.lhsNonContracting by decide)]
    rfl
  | ⟨1, _⟩ => exact (dot_S1024x512_S512x1536_S1024x1536_1_0_0_1_n_n.lhsIdx_val_of_single rfl (ix2 p q) _).trans hk

/-- The right operand's index for result entry (p, q) and contracted position k is (k, q): axis 0 is the
    contracted one, axis 1 the result's column. -/
theorem rhs_at (p : Fin 1024) (q : Fin 1536) (k : Fin 512) :
    dot_S1024x512_S512x1536_S1024x1536_1_0_0_1_n_n.rhsIdx (ix2 p q) ((contrEquiv1 dot_S1024x512_S512x1536_S1024x1536_1_0_0_1_n_n 512 rfl rfl).symm k) = ix2 k q := by
  have hk := contrEquiv1_symm_val dot_S1024x512_S512x1536_S1024x1536_1_0_0_1_n_n 512 rfl rfl k
  refine funext fun a => Fin.ext ?_
  match a with
  | ⟨0, _⟩ => exact (dot_S1024x512_S512x1536_S1024x1536_1_0_0_1_n_n.rhsIdx_val_of_single rfl (ix2 p q) _).trans hk
  | ⟨1, _⟩ =>
    show (dot_S1024x512_S512x1536_S1024x1536_1_0_0_1_n_n.rhsIdx (ix2 p q) _ 1).val = q.val
    unfold DotDims.rhsIdx
    rw [dif_neg (show ¬(1 : Fin S512x1536.rank) ∈ dot_S1024x512_S512x1536_S1024x1536_1_0_0_1_n_n.rhsBatch by decide),
      dif_pos (show (1 : Fin S512x1536.rank) ∈ dot_S1024x512_S512x1536_S1024x1536_1_0_0_1_n_n.rhsNonContracting by decide)]
    rfl

/-- The contraction into a zero accumulator at entry (p, q): the sum over the 512 contracted positions of
    the left operand's row p times the right operand's column q. -/
theorem mm_apply (a : FVec Ideal S1024x512 .bf16) (b : FVec Ideal S512x1536 .bf16) (p : Fin 1024) (q : Fin 1536) :
    matmul (F := Ideal) dot_S1024x512_S512x1536_S1024x1536_1_0_0_1_n_n none a b
        (constant (F := Ideal) S1024x1536 .f32 0x00000000#32) (ix2 p q)
      = ∑ k : Fin 512, a (ix2 p k) * b (ix2 k q) := by
  refine (Ideal.matmul_constant_zero_apply dot_S1024x512_S512x1536_S1024x1536_1_0_0_1_n_n none a b (ix2 p q)).trans ?_
  rw [← Equiv.sum_comp (contrEquiv1 dot_S1024x512_S512x1536_S1024x1536_1_0_0_1_n_n 512 rfl rfl).symm]
  refine Finset.sum_congr rfl fun k _ => ?_
  rw [lhs_at, rhs_at]

/-- Entry (p, q) of the stored block: tanh of the contraction of x's row p with the masked weight's column q,
    plus the bias row's entry q. -/
theorem pay_apply (x0 : Vec Ideal S1024x512 .f32) (w0 m0 : Vec Ideal S512x1536 .f32) (b0 : Vec Ideal S1x1536 .f32)
    (p : Fin 1024) (q : Fin 1536) :
    k0_pay1 (F := Ideal) x0 w0 m0 b0 (ix2 p q)
      = Ideal.tanh ((∑ k : Fin 512, x0 (ix2 p k) * (w0 (ix2 k q) * m0 (ix2 k q))) + b0 (ix2 0 q)) := by
  unfold k0_pay1
  show Ideal.tanh
      (matmul (F := Ideal) dot_S1024x512_S512x1536_S1024x1536_1_0_0_1_n_n none (truncf .bf16 x0 bitsLt_bf16_f32)
          (truncf .bf16 (mulf w0 m0) bitsLt_bf16_f32) (constant (F := Ideal) S1024x1536 .f32 0x00000000#32) (ix2 p q)
        + broadcastTo S1024x1536 (shapeCast S1x1536 b0 shapeCasts_S1x1536_S1x1536) broadcasts_S1x1536_S1024x1536 (ix2 p q))
      = _
  rw [mm_apply, shapeCast_self, broadcastTo_1b_ab_apply]
  rfl

end Cert.KerLit

end
-- ==== Proof.LitSpec.lean ====
/-
  The literal layer as one function of the argument arrays.

  For a batch row `i` and a literal `l`, the layer's entry is
      tanh ( Σ_k  x[i,k] · (weight[k,l] · mask[k,l])  +  bias[l] )
  on the extended reals: the sum runs over the 512 input features, the product of the weight with its
  learnable mask is taken entry by entry before the contraction, and the bias is added after it.
  Both programs compute this array; everything after it is the same composition of host operations.
-/
import Idealize.ShloMosaic.PureOps.Ideal
import Idealize.ShloMosaic.Lib.ValueIdx

noncomputable section

open scoped BigOperators

namespace Cert.Lit

open Idealize.ShloMosaic Idealize.ShloMosaic.ValueIdx

/-- Entry `(i, l)` of the literal layer: `tanh (Σ_k x[i,k] · (w[k,l] · mk[k,l]) + b[l])`. -/
def lit (x : FVec Ideal ⟨2, ![8192, 512]⟩ .f32) (w mk : FVec Ideal ⟨2, ![512, 10752]⟩ .f32)
    (b : FVec Ideal ⟨1, ![10752]⟩ .f32) : FVec Ideal ⟨2, ![8192, 10752]⟩ .f32 :=
  fun j => Ideal.tanh ((∑ k : Fin 512, x (ix2 (j 0) k) * (w (ix2 k (j 1)) * mk (ix2 k (j 1)))) + b (ix1 (j 1)))

/-- The entry at explicit coordinates. -/
theorem lit_apply (x : FVec Ideal ⟨2, ![8192, 512]⟩ .f32) (w mk : FVec Ideal ⟨2, ![512, 10752]⟩ .f32)
    (b : FVec Ideal ⟨1, ![10752]⟩ .f32) (p : Fin 8192) (q : Fin 10752) :
    lit x w mk b (ix2 p q)
      = Ideal.tanh ((∑ k : Fin 512, x (ix2 p k) * (w (ix2 k q) * mk (ix2 k q))) + b (ix1 q)) := rfl

end Cert.Lit

end
-- ==== Proof.Tail.lean ====
/-
  Everything both programs compute AFTER the literal layer, as one function.

  From the literal layer `lits` [8192, 10752] and the arguments `x`, the centres `mu`, the widths `sigma` and the two
  index tables, both programs run the same host lines:
    * AND layer: the literals of each conjunction are summed (a scatter-add of the transposed layer along the
      literal-to-conjunction table), the conjunction's literal count (the same scatter-add of ones) is
      subtracted, 1.5 added, and tanh taken;
    * OR layer: the conjunctions of each formula are summed the same way along the conjunction-to-formula table, the
      formula's conjunction count added, 1.5 subtracted, and tanh taken;
    * the localization weights: the squared distance |x|² − 2 x·mu + |mu|² of each row to each centre, scaled by −1/2 and divided by
      sigma², exponentiated and doubled, then a softmax over the 256 formulas (the row maximum subtracted first);
    * the result is the OR layer times the localization weights.
  The reference's result term is this function of ITS literal layer, by unfolding.
-/
import proofs.«163715_j26259430048006_1_alg».proof.Proof.Gen.ReferenceIdeal.Run

set_option maxRecDepth 8192

noncomputable section

namespace Cert.Tail

open Cert.ReferenceIdeal Cert.ReferenceIdeal.Gen Idealize.ShloMosaic Idealize.ShloMosaic.TcCoe Idealize.SL.Sem Idealize.ShloMosaic.StableHlo

variable {F : FTy → Type} [FloatOps F]

/-- The host lines after the literal layer, composed. -/
def tail (lits : (⟨S8192x10752, .f32⟩ : BufTy).Contents (Elt F)) (x : (⟨S8192x512, .f32⟩ : BufTy).Contents (Elt F))
    (mu : (⟨S256x512, .f32⟩ : BufTy).Contents (Elt F)) (sigma : (⟨S256, .f32⟩ : BufTy).Contents (Elt F))
    (l2c : (⟨S10752, .i32⟩ : BufTy).Contents (Elt F)) (c2f : (⟨S2688, .i32⟩ : BufTy).Contents (Elt F)) :
    (⟨S8192x256, .f32⟩ : BufTy).Contents (Elt F) :=
  -- AND layer: per conjunction, the number of its literals and the sum of its literals
  have andBias : (⟨S2688, .f32⟩ : BufTy).Contents (Elt F) :=
    Host.scatterAdd scatter_S2688_S10752x1_S10752_n_0_0_1 (broadcastInDim S2688 ![] bcast_S_S2688 (constant S_ .f32 0x00000000#32)) (broadcastInDim S10752x1 ![0] bcast_S10752_S10752x1_0 l2c) (broadcastInDim S10752 ![] bcast_S_S10752 (constant S_ .f32 0x3F800000#32))
  have conjSum : (⟨S8192x2688, .f32⟩ : BufTy).Contents (Elt F) :=
    transpose S8192x2688 [1, 0] (Host.scatterAdd scatter_S2688x8192_S10752x1_S10752x8192_1_0_0_1 (broadcastInDim S2688x8192 ![] bcast_S_S2688x8192 (constant S_ .f32 0x00000000#32)) (broadcastInDim S10752x1 ![0] bcast_S10752_S10752x1_0 l2c) (transpose S10752x8192 [1, 0] lits transposes_S8192x10752_S10752x8192_1_0)) transposes_S2688x8192_S8192x2688_1_0
  have conj : (⟨S8192x2688, .f32⟩ : BufTy).Contents (Elt F) :=
    Host.tanh (addf (subf conjSum (broadcastInDim S8192x2688 ![0, 1] bcast_S1x2688_S8192x2688_0_1 (broadcastInDim S1x2688 ![1] bcast_S2688_S1x2688_1 andBias))) (broadcastInDim S8192x2688 ![] bcast_S_S8192x2688 (constant S_ .f32 0x3FC00000#32)))
  -- OR layer: per formula, the number of its conjunctions and the sum of its conjunctions
  have orBias : (⟨S256, .f32⟩ : BufTy).Contents (Elt F) :=
    Host.scatterAdd scatter_S256_S2688x1_S2688_n_0_0_1 (broadcastInDim S256 ![] bcast_S_S256 (constant S_ .f32 0x00000000#32)) (broadcastInDim S2688x1 ![0] bcast_S2688_S2688x1_0 c2f) (broadcastInDim S2688 ![] bcast_S_S2688 (constant S_ .f32 0x3F800000#32))
  have formSum : (⟨S8192x256, .f32⟩ : BufTy).Contents (Elt F) :=
    transpose S8192x256 [1, 0] (Host.scatterAdd scatter_S256x8192_S2688x1_S2688x8192_1_0_0_1 (broadcastInDim S256x8192 ![] bcast_S_S256x8192 (constant S_ .f32 0x00000000#32)) (broadcastInDim S2688x1 ![0] bcast_S2688_S2688x1_0 c2f) (transpose S2688x8192 [1, 0] conj transposes_S8192x2688_S2688x8192_1_0)) transposes_S256x8192_S8192x256_1_0
  have dnnf : (⟨S8192x256, .f32⟩ : BufTy).Contents (Elt F) :=
    Host.tanh (subf (addf formSum (broadcastInDim S8192x256 ![0, 1] bcast_S1x256_S8192x256_0_1 (broadcastInDim S1x256 ![1] bcast_S256_S1x256_1 orBias))) (broadcastInDim S8192x256 ![] bcast_S_S8192x256 (constant S_ .f32 0x3FC00000#32)))
  -- squared distance of each row of x to each centre: |x|² − 2 x·mu + |mu|²
  have xx : (⟨S8192, .f32⟩ : BufTy).Contents (Elt F) :=
    Host.reduceAdd (mulf x x) (constant S_ .f32 0x00000000#32) reducesTo_S8192x512_S8192_d1 h_S_
  have xmu : (⟨S8192x256, .f32⟩ : BufTy).Contents (Elt F) :=
    Host.dotGeneral dot_S8192x512_S512x256_S8192x256_1_0_0_1_n_n none x (transpose S512x256 [1, 0] mu transposes_S256x512_S512x256_1_0)
  have mumu : (⟨S256, .f32⟩ : BufTy).Contents (Elt F) :=
    Host.reduceAdd (mulf mu mu) (constant S_ .f32 0x00000000#32) reducesTo_S256x512_S256_d1 h_S_
  have sq : (⟨S8192x256, .f32⟩ : BufTy).Contents (Elt F) :=
    addf (subf (broadcastInDim S8192x256 ![0, 1] bcast_S8192x1_S8192x256_0_1 (broadcastInDim S8192x1 ![0] bcast_S8192_S8192x1_0 xx)) (mulf (broadcastInDim S8192x256 ![] bcast_S_S8192x256 (constant S_ .f32 0x40000000#32)) xmu)) (broadcastInDim S8192x256 ![0, 1] bcast_S1x256_S8192x256_0_1 (broadcastInDim S1x256 ![1] bcast_S256_S1x256_1 mumu))
  -- the localization logits: 2 · exp(−sq / 2 / sigma²)
  have z : (⟨S8192x256, .f32⟩ : BufTy).Contents (Elt F) :=
    mulf (broadcastInDim S8192x256 ![] bcast_S_S8192x256 (constant S_ .f32 0x40000000#32)) (Host.exp (Host.divf (mulf (broadcastInDim S8192x256 ![] bcast_S_S8192x256 (constant S_ .f32 0xBF000000#32)) sq) (broadcastInDim S8192x256 ![0, 1] bcast_S1x256_S8192x256_0_1 (broadcastInDim S1x256 ![1] bcast_S256_S1x256_1 (mulf sigma sigma)))))
  -- softmax over the formulas, the row maximum subtracted first
  have zmax : (⟨S8192, .f32⟩ : BufTy).Contents (Elt F) :=
    maximumf (broadcastInDim S8192 ![] bcast_S_S8192 (constant S_ .f32 0xFF800000#32)) (Host.reduce FloatOps.maximumf z (constant S_ .f32 0xFF800000#32) reducesTo_S8192x256_S8192_d1 h_S_)
  have e : (⟨S8192x256, .f32⟩ : BufTy).Contents (Elt F) :=
    Host.exp (subf z (broadcastInDim S8192x256 ![0, 1] bcast_S8192x1_S8192x256_0_1 (broadcastInDim S8192x1 ![0] bcast_S8192_S8192x1_0 zmax)))
  have loc : (⟨S8192x256, .f32⟩ : BufTy).Contents (Elt F) :=
    Host.divf e (broadcastInDim S8192x256 ![0, 1] bcast_S8192x1_S8192x256_0_1 (broadcastInDim S8192x1 ![0] bcast_S8192_S8192x1_0 (Host.reduceAdd e (constant S_ .f32 0x00000000#32) reducesTo_S8192x256_S8192_d1 h_S_)))
  mulf dnnf loc

/-- The reference's literal layer, as its first six host lines compute it. -/
def refLits (x : (⟨S8192x512, .f32⟩ : BufTy).Contents (Elt F)) (w mk : (⟨S512x10752, .f32⟩ : BufTy).Contents (Elt F))
    (b : (⟨S10752, .f32⟩ : BufTy).Contents (Elt F)) : (⟨S8192x10752, .f32⟩ : BufTy).Contents (Elt F) :=
  Host.tanh (addf (Host.dotGeneral dot_S8192x512_S512x10752_S8192x10752_1_0_0_1_n_n none x (mulf w mk))
    (broadcastInDim S8192x10752 ![0, 1] bcast_S1x10752_S8192x10752_0_1 (broadcastInDim S1x10752 ![1] bcast_S10752_S1x10752_1 b)))

/-- The reference's result is the tail of its literal layer. -/
theorem ref_result (m : (ℓ : Loc nD τ sig) → Buf (Elt F) ℓ) (c : Dev nD) :
    Cert.ReferenceIdeal.Value.res_main_v70 (F := F) m c
      = tail (refLits (m ((c.tc : Thread nD τ).loc main_arg0)) (m ((c.tc : Thread nD τ).loc main_arg1)) (m ((c.tc : Thread nD τ).loc main_arg2)) (m ((c.tc : Thread nD τ).loc main_arg3)))
          (m ((c.tc : Thread nD τ).loc main_arg0)) (m ((c.tc : Thread nD τ).loc main_arg4)) (m ((c.tc : Thread nD τ).loc main_arg5))
          (m ((c.tc : Thread nD τ).loc main_arg6)) (m ((c.tc : Thread nD τ).loc main_arg7)) := by
  unfold Cert.ReferenceIdeal.Value.res_main_v70 tail refLits
  rfl

end Cert.Tail

end
-- ==== Proof.KerTail.lean ====
/-
  The 81 host lines after the literal layer's region, run from any buffer contents `W`, leave in the result buffer
  the shared tail function of what `W` holds in the literal layer's buffer and in the arguments `x`, the centres,
  the widths and the two index tables: each line's result is its operation of the earlier results, and composing them
  in order is the tail's definition.
-/
import proofs.«163715_j26259430048006_1_alg».proof.Proof.Tail
import proofs.«163715_j26259430048006_1_alg».proof.Proof.Gen.KernelIdeal.Launch
import Idealize.ShloMosaic.Lib.StableHlo.Run

set_option maxRecDepth 16384
set_option maxHeartbeats 40000000

noncomputable section

namespace Cert.KerTail

open Cert.KernelIdeal Cert.KernelIdeal.Gen Idealize.ShloMosaic Idealize.ShloMosaic.TcCoe Idealize.SL.Sem Idealize.ShloMosaic.StableHlo

variable {F : FTy → Type} [FloatOps F]

theorem later_result (W : Valuation τ sig (Elt F)) :
    StableHlo.after (hostOps1 : List (HloOp τ sig (Elt F))) W (Proc.devRef .tc main_v66)
      = Cert.Tail.tail (W (Proc.devRef .tc main_v1)) (W (Proc.devRef .tc main_arg0)) (W (Proc.devRef .tc main_arg4))
          (W (Proc.devRef .tc main_arg5)) (W (Proc.devRef .tc main_arg6)) (W (Proc.devRef .tc main_arg7)) := by
  after_results_simp <;> (unfold Cert.Tail.tail; rfl)

end Cert.KerTail

end
-- ==== Proof.KIValue.lean ====
/-
  What the idealized kernel's result buffer holds after the run, at the extended reals.

  Grid point `t` of the 7 x 8 grid has a column block `t / 8` of the literal axis and a row block `t % 8` of the batch
  axis. It stages rows `1024·(t % 8) …` of `x`, columns `1536·(t / 8) …` of the weight, of the mask and of the bias
  row, and writes back the block (t % 8, t / 8) of the literal layer. An entry (p, q) of that block is
  tanh(Σ_k x[1024·(t%8)+p, k] · (w[k, 1536·(t/8)+q] · mask[k, 1536·(t/8)+q]) + bias[1536·(t/8)+q]), which is entry
  (1024·(t%8)+p, 1536·(t/8)+q) of the literal layer as ONE function of the arrays. The 56 blocks tile the
  [8192, 10752] array, so after the region the array IS that function; the 81 later host lines then compute the shared
  tail of it.
-/
import proofs.«163715_j26259430048006_1_alg».proof.Proof.KIBody
import proofs.«163715_j26259430048006_1_alg».proof.Proof.KerPayload
import proofs.«163715_j26259430048006_1_alg».proof.Proof.LitSpec
import proofs.«163715_j26259430048006_1_alg».proof.Proof.KerTail
import Idealize.ShloMosaic.Lib.Pipeline.Value
import Idealize.ShloMosaic.Lib.ValueIdx
import Idealize.ShloMosaic.Lib.StableHlo.Run

set_option maxRecDepth 16384
set_option maxHeartbeats 40000000

noncomputable section

open scoped BigOperators

namespace Cert.KerValue

open Cert.KernelIdeal Cert.KernelIdeal.Gen Cert.KernelIdeal.Host Cert.KernelIdeal.Body
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-! ## The printed index maps, decided over the grid -/

/-- At every point the `x` window's row block is the output's row block and its column block is 0; the weight, mask
    and bias-row windows' column block is the output's column block and their row block is 0; the output's block
    indices stay in 0..7 and 0..6. -/
theorem idx_facts : ∀ t : Fin cfg0.N,
    win0_0.index t (0 : Fin 2) = win0_4.index t (0 : Fin 2) ∧ win0_0.index t (1 : Fin 2) = 0
    ∧ win0_1.index t (0 : Fin 2) = 0 ∧ win0_1.index t (1 : Fin 2) = win0_4.index t (1 : Fin 2)
    ∧ win0_2.index t (0 : Fin 2) = 0 ∧ win0_2.index t (1 : Fin 2) = win0_4.index t (1 : Fin 2)
    ∧ win0_3.index t (0 : Fin 2) = 0 ∧ win0_3.index t (1 : Fin 2) = win0_4.index t (1 : Fin 2)
    ∧ win0_4.index t (0 : Fin 2) ≤ 7 ∧ win0_4.index t (1 : Fin 2) ≤ 6 :=
  (by decide +kernel : ∀ t : Fin grid0.N, _)

/-- Every one of the 8 x 7 blocks of the literal layer is some point's. -/
theorem idx_onto : ∀ (q0 : Fin 8) (q1 : Fin 7), ∃ t : Fin cfg0.N, win0_4.index t = ![q0.val, q1.val] :=
  (by decide +kernel : ∀ (q0 : Fin 8) (q1 : Fin 7), ∃ t : Fin grid0.N, win0_4.index t = ![q0.val, q1.val])

/-! ## An input block's entry is the array's entry at block index × block size + the coordinate inside the block -/

/-- Point `t`'s block of `x`, of the weight, of the mask and of the bias row, at their literal shapes. -/
abbrev xb (c : Dev nD) (t : Fin cfg0.N) : Vec Ideal S1024x512 .f32 := iblk m c 0 t
abbrev wb (c : Dev nD) (t : Fin cfg0.N) : Vec Ideal S512x1536 .f32 := iblk m c 1 t
abbrev mb (c : Dev nD) (t : Fin cfg0.N) : Vec Ideal S512x1536 .f32 := iblk m c 2 t
abbrev bb (c : Dev nD) (t : Fin cfg0.N) : Vec Ideal S1x1536 .f32 := iblk m c 3 t

theorem xblk_at (c : Dev nD) (t : Fin cfg0.N) (y : S1024x512.Idx) (i : S8192x512.Idx)
    (h0 : (i 0).val = win0_0.index t 0 * 1024 + (y 0).val) (h1 : (i 1).val = win0_0.index t 1 * 512 + (y 1).val) :
    xb m c t y = (V m c main_arg0 : S8192x512.Idx → EReal) i := by
  unfold xb iblk
  rw [View.read_apply]
  show V m c main_arg0 _ = V m c main_arg0 _
  congr 1
  funext a
  apply Fin.ext
  match a with
  | ⟨0, _⟩ => show win0_0.index t 0 * 1024 + 1 * (y 0).val = (i 0).val; omega
  | ⟨1, _⟩ => show win0_0.index t 1 * 512 + 1 * (y 1).val = (i 1).val; omega

theorem wblk_at (c : Dev nD) (t : Fin cfg0.N) (y : S512x1536.Idx) (i : S512x10752.Idx)
    (h0 : (i 0).val = win0_1.index t 0 * 512 + (y 0).val) (h1 : (i 1).val = win0_1.index t 1 * 1536 + (y 1).val) :
    wb m c t y = (V m c main_arg1 : S512x10752.Idx → EReal) i := by
  unfold wb iblk
  rw [View.read_apply]
  show V m c main_arg1 _ = V m c main_arg1 _
  congr 1
  funext a
  apply Fin.ext
  match a with
  | ⟨0, _⟩ => show win0_1.index t 0 * 512 + 1 * (y 0).val = (i 0).val; omega
  | ⟨1, _⟩ => show win0_1.index t 1 * 1536 + 1 * (y 1).val = (i 1).val; omega

theorem mblk_at (c : Dev nD) (t : Fin cfg0.N) (y : S512x1536.Idx) (i : S512x10752.Idx)
    (h0 : (i 0).val = win0_2.index t 0 * 512 + (y 0).val) (h1 : (i 1).val = win0_2.index t 1 * 1536 + (y 1).val) :
    mb m c t y = (V m c main_arg2 : S512x10752.Idx → EReal) i := by
  unfold mb iblk
  rw [View.read_apply]
  show V m c main_arg2 _ = V m c main_arg2 _
  congr 1
  funext a
  apply Fin.ext
  match a with
  | ⟨0, _⟩ => show win0_2.index t 0 * 512 + 1 * (y 0).val = (i 0).val; omega
  | ⟨1, _⟩ => show win0_2.index t 1 * 1536 + 1 * (y 1).val = (i 1).val; omega

theorem bblk_at (c : Dev nD) (t : Fin cfg0.N) (y : S1x1536.Idx) (i : S1x10752.Idx)
    (h0 : (i 0).val = win0_3.index t 0 * 1 + (y 0).val) (h1 : (i 1).val = win0_3.index t 1 * 1536 + (y 1).val) :
    bb m c t y = (V m c main_v0 : S1x10752.Idx → EReal) i := by
  unfold bb iblk
  rw [View.read_apply]
  show V m c main_v0 _ = V m c main_v0 _
  congr 1
  funext a
  apply Fin.ext
  match a with
  | ⟨0, _⟩ => show win0_3.index t 0 * 1 + 1 * (y 0).val = (i 0).val; omega
  | ⟨1, _⟩ => show win0_3.index t 1 * 1536 + 1 * (y 1).val = (i 1).val; omega

/-! ## The literal layer of the arrays as the region finds them -/

/-- The literal layer as one function of the four staged input arrays, the bias read off its row. -/
def G (c : Dev nD) : S8192x10752.Idx → EReal :=
  Cert.Lit.lit (V m c main_arg0) (V m c main_arg1) (V m c main_arg2)
    (fun j => (V m c main_v0 : S1x10752.Idx → EReal) (ix2 0 (j 0)))

/-- Entry (p, q) of what the body computes from point `t`'s blocks is the literal layer's entry at the block's offset. -/
theorem lit_at_block (c : Dev nD) (t : Fin cfg0.N) (p : Fin 1024) (q : Fin 1536) (i : S8192x10752.Idx)
    (hi0 : (i 0).val = win0_4.index t 0 * 1024 + p.val) (hi1 : (i 1).val = win0_4.index t 1 * 1536 + q.val) :
    Ideal.tanh ((∑ k : Fin 512, xb m c t (ix2 p k)
        * (wb m c t (ix2 k q) * mb m c t (ix2 k q)))
        + bb m c t (ix2 0 q))
      = G m c i := by
  obtain ⟨e00, e01, e10, e11, e20, e21, e30, e31, -, -⟩ := idx_facts t
  unfold G Cert.Lit.lit
  dsimp only
  congr 1
  congr 1
  · refine Finset.sum_congr rfl fun k _ => ?_
    rw [xblk_at m c t (ix2 p k) (ix2 (i 0) k) (by show (i 0).val = win0_0.index t 0 * 1024 + p.val; omega) (by show k.val = win0_0.index t 1 * 512 + k.val; omega),
      wblk_at m c t (ix2 k q) (ix2 k (i 1)) (by show k.val = win0_1.index t 0 * 512 + k.val; omega) (by show (i 1).val = win0_1.index t 1 * 1536 + q.val; omega),
      mblk_at m c t (ix2 k q) (ix2 k (i 1)) (by show k.val = win0_2.index t 0 * 512 + k.val; omega) (by show (i 1).val = win0_2.index t 1 * 1536 + q.val; omega)]
  · exact bblk_at m c t (ix2 0 q) (ix2 0 (i 1)) (by show (0 : Nat) = win0_3.index t 0 * 1 + 0; omega) (by show (i 1).val = win0_3.index t 1 * 1536 + q.val; omega)

/-! ## From the blocks to the array -/

/-- What point `t` writes back is block `t` of the literal layer. -/
theorem flushed_eq (c : Dev nD) (t : Fin cfg0.N) :
    (dats m 0 c).flushed 4 t = ((cfg0.win 4).blk t).view.read (Elt Ideal) (G m c) := by
  show (cfg0.win 4).cut (grid0.coords t) ((dats m 0 c).after 4 t) = _
  rw [after0_4]
  unfold out0_4
  rw [View.canon_unit_zero hz]
  simp only [View.ld_unit_zero (S := S1024x512) hz, View.ld_unit_zero (S := S512x1536) hz, View.ld_unit_zero (S := S1x1536) hz]
  funext j
  obtain ⟨p, q, rfl⟩ : ∃ (p : Fin 1024) (q : Fin 1536), j = ix2 p q := ⟨j 0, j 1, eq_ix2 j⟩
  show k0_pay1 (F := Ideal) (iblk m c 0 t) (iblk m c 1 t) (iblk m c 2 t) (iblk m c 3 t) (ix2 p q)
    = G m c (((cfg0.win 4).blk t).view.emb (ix2 p q))
  refine (Cert.KerLit.pay_apply _ _ _ _ p q).trans ?_
  refine lit_at_block m c t p q _ ?_ ?_
  · show win0_4.index t 0 * 1024 + 1 * p.val = _; omega
  · show win0_4.index t 1 * 1536 + 1 * q.val = _; omega

/-- An index of the array is in point `t`'s block iff each coordinate is in the block's range on its axis. -/
theorem mem_blk (t : Fin cfg0.N) (i : S8192x10752.Idx) :
    i ∈ ((cfg0.win 4).blk t).view.set ↔ ∀ a : Fin 2, win0_4.index t a * S1024x1536.size a ≤ (i a).val ∧ (i a).val < win0_4.index t a * S1024x1536.size a + S1024x1536.size a := by
  show i ∈ ((View.whole main_v1).slice (win0_4.rect t)).set ↔ _
  rw [View.set_slice_whole, Rect.mem_set_unit]
  exact Iff.rfl

/-- Every entry (r, l) of the literal layer is in the block (r / 1024, l / 1536), which some point writes back. -/
theorem cover (i : S8192x10752.Idx) : ∃ t : Fin cfg0.N, (cfg0.win 4).flush t = true ∧ i ∈ ((cfg0.win 4).blk t).view.set := by
  have hi0 : (i 0).val < 8192 := (i 0).isLt
  have hi1 : (i 1).val < 10752 := (i 1).isLt
  obtain ⟨t, ht⟩ := idx_onto ⟨(i 0).val / 1024, by omega⟩ ⟨(i 1).val / 1536, by omega⟩
  have q0 : win0_4.index t (0 : Fin 2) = (i 0).val / 1024 := congrFun ht 0
  have q1 : win0_4.index t (1 : Fin 2) = (i 1).val / 1536 := congrFun ht 1
  refine ⟨t, flush0_4 t, ?_⟩
  rw [mem_blk]
  intro a
  match a with
  | ⟨0, _⟩ => show win0_4.index t (0 : Fin 2) * 1024 ≤ (i 0).val ∧ (i 0).val < win0_4.index t (0 : Fin 2) * 1024 + 1024; omega
  | ⟨1, _⟩ => show win0_4.index t (1 : Fin 2) * 1536 ≤ (i 1).val ∧ (i 1).val < win0_4.index t (1 : Fin 2) * 1536 + 1536; omega

/-- After the region the literal layer's array is the literal layer of the arrays as the region found them. -/
theorem final (c : Dev nD) : (dats m 0 c).arrAt 4 cfg0.N = G m c :=
  (dats m 0 c).arrAt_eq_of_cover 4 (G m c) (fun t _ => flushed_eq m c t) cover

/-! ## In terms of the launch arguments -/

/-- The bias row the region stages is the bias with a unit axis in front: its entry (0, q) is the bias's entry q. -/
theorem bias_row (c : Dev nD) (q : Fin 10752) :
    (V m c main_v0 : S1x10752.Idx → EReal) (ix2 0 q) = ((m ((c.tc : Thread nD τ).loc main_arg3)) : S10752.Idx → EReal) (ix1 q) := by
  have e : (V m c main_v0 : S1x10752.Idx → EReal)
      = shapeCast S1x10752 ((m ((c.tc : Thread nD τ).loc main_arg3)) : S10752.Idx → EReal) shapeCasts_S10752_S1x10752 := by
    show StableHlo.after hostOps0 (fun b => m (c, b)) (Proc.devRef .tc main_v0) = _
    after_results
    rfl
  rw [e]
  refine (shapeCast_addUnit_apply ![10752] _ _ (ix2 0 q)).trans ?_
  congr 1
  funext a
  match a with
  | ⟨0, _⟩ => rfl

/-- The literal layer of the arrays as the region finds them is the literal layer of the launch arguments. -/
theorem G_eq (c : Dev nD) : G m c = Cert.Lit.lit (m ((c.tc : Thread nD τ).loc main_arg0)) (m ((c.tc : Thread nD τ).loc main_arg1)) (m ((c.tc : Thread nD τ).loc main_arg2)) (m ((c.tc : Thread nD τ).loc main_arg3)) := by
  unfold G
  rw [V_main_arg0 m c, V_main_arg1 m c, V_main_arg2 m c]
  congr 1
  funext j
  exact (bias_row m c (j 0)).trans (congrArg _ (eq_ix1 j).symm)

/-- The tail of equal arrays is equal. -/
theorem tail_congr {l l' : (⟨Cert.ReferenceIdeal.S8192x10752, .f32⟩ : BufTy).Contents (Elt Ideal)}
    {x x' : (⟨Cert.ReferenceIdeal.S8192x512, .f32⟩ : BufTy).Contents (Elt Ideal)}
    {mu mu' : (⟨Cert.ReferenceIdeal.S256x512, .f32⟩ : BufTy).Contents (Elt Ideal)}
    {s s' : (⟨Cert.ReferenceIdeal.S256, .f32⟩ : BufTy).Contents (Elt Ideal)}
    {a a' : (⟨Cert.ReferenceIdeal.S10752, .i32⟩ : BufTy).Contents (Elt Ideal)}
    {b b' : (⟨Cert.ReferenceIdeal.S2688, .i32⟩ : BufTy).Contents (Elt Ideal)}
    (h1 : l = l') (h2 : x = x') (h3 : mu = mu') (h4 : s = s') (h5 : a = a') (h6 : b = b') :
    Cert.Tail.tail l x mu s a b = Cert.Tail.tail l' x' mu' s' a' b' := by
  subst h1 h2 h3 h4 h5 h6; rfl

/-- The result buffer after the later lines: they read the literal layer's array as the region left it, `x` (an input
    window's array, unchanged by the region) and the four arguments that bypass the region, and compute the tail. -/
theorem result_eq (c : Dev nD) :
    Pipeline.afterTail₀ cfgs (dats m) 0 (V0 m) [hostOps1] c main_v66
      = Cert.Tail.tail (Cert.Lit.lit (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) := by
  unfold Pipeline.afterTail₀
  refine (Cert.KerTail.later_result _).trans ?_
  exact tail_congr
    ((Pipeline.withArrays_arr spec0 launch0.win.arr_inj c _ _ 4).trans ((final m c).trans (G_eq m c)))
    ((Pipeline.withArrays_arr spec0 launch0.win.arr_inj c _ _ 0).trans (((dats m 0 c).arrAt_in 0 rfl _).trans ((A_eq m c 0).trans (V_main_arg0 m c))))
    ((Pipeline.withArrays_of_ne _ c (V0 m c) _ main_arg4 (by exact (by decide : ∀ w, Pipeline.arrRef spec0 w ≠ main_arg4))).trans (V_main_arg4 m c))
    ((Pipeline.withArrays_of_ne _ c (V0 m c) _ main_arg5 (by exact (by decide : ∀ w, Pipeline.arrRef spec0 w ≠ main_arg5))).trans (V_main_arg5 m c))
    ((Pipeline.withArrays_of_ne _ c (V0 m c) _ main_arg6 (by exact (by decide : ∀ w, Pipeline.arrRef spec0 w ≠ main_arg6))).trans (V_main_arg6 m c))
    ((Pipeline.withArrays_of_ne _ c (V0 m c) _ main_arg7 (by exact (by decide : ∀ w, Pipeline.arrRef spec0 w ≠ main_arg7))).trans (V_main_arg7 m c))

/-! ## The run, read -/

/-- Every weakly fair execution of the idealized kernel's @main terminates with the result buffer at the tail of the
    literal layer of the launch arguments, and the arguments unchanged. -/
theorem run : θ_run defs (onTc (τ := τ) (main (F := Ideal))) ⟨m, fun _ => 0, ρ⟩ (fun r => ∀ c : Dev nD,
      r.2.mem ((c.tc : Thread nD τ).loc main_v66)
        = Cert.Tail.tail (Cert.Lit.lit (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c =>
    ⟨((h c).2 main_v66 (Pipeline.mem_restRefs_of main_v66 (by decide) (by decide))).trans (result_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c)⟩)
    (run_main m ρ)

end Cert.KerValue

end
-- ==== Proof.RefLiterals.lean ====
/-
  The reference's first six operations are the literal layer.

  The reference multiplies the weight by its mask entry by entry, contracts the batch of inputs with
  that product over the 512 input features, broadcasts the bias row over the 8192 batch rows, adds it,
  and applies tanh. Read at an entry (p, q) this is
      tanh ( Σ_k x[p,k] · (w[k,q] · mk[k,q]) + b[q] ),
  which is the specification's entry. The only work is to identify the index functions through which
  the contraction and the two broadcasts read their operands with the coordinate constructors.
-/
import proofs.«163715_j26259430048006_1_alg».proof.Proof.Gen.ReferenceIdeal.Read
import proofs.«163715_j26259430048006_1_alg».proof.Proof.LitSpec
import Idealize.ShloMosaic.PureOps.Ideal
import Idealize.ShloMosaic.Lib.ValueIdx

noncomputable section

open scoped BigOperators

namespace Cert.RefLit

open Cert.ReferenceIdeal Cert.ReferenceIdeal.Gen Idealize.ShloMosaic Idealize.ShloMosaic.ValueIdx

/-- The contraction reads its left operand at row `p`, column `k`. -/
theorem lidx_eq (p : Fin 8192) (q : Fin 10752) (k : Fin 512) :
    Read.lidx_main_v1 (ix2 p q) k = ix2 p k :=
  funext fun a => Fin.ext (by match a with | ⟨0, _⟩ => rfl | ⟨1, _⟩ => rfl)

/-- The contraction reads its right operand at row `k`, column `q`. -/
theorem ridx_eq (p : Fin 8192) (q : Fin 10752) (k : Fin 512) :
    Read.ridx_main_v1 (ix2 p q) k = ix2 k q :=
  funext fun a => Fin.ext (by match a with | ⟨0, _⟩ => rfl | ⟨1, _⟩ => rfl)

/-- The two broadcasts of the bias, composed, read it at column `q`. -/
theorem bidx_eq (p : Fin 8192) (q : Fin 10752) :
    Read.idx_main_v2 (Read.idx_main_v3 (ix2 p q)) = ix1 q :=
  funext fun a => Fin.ext (by match a with | ⟨0, _⟩ => rfl)

/-- The reference's value after its first six operations is the literal layer. -/
theorem ref_lits_eq (x : FVec Ideal S8192x512 .f32) (w mk : FVec Ideal S512x10752 .f32) (b : FVec Ideal S10752 .f32) :
    Host.tanh (F := Ideal) (addf (Host.dotGeneral dot_S8192x512_S512x10752_S8192x10752_1_0_0_1_n_n none x (mulf w mk))
      (broadcastInDim S8192x10752 ![0, 1] bcast_S1x10752_S8192x10752_0_1 (broadcastInDim S1x10752 ![1] bcast_S10752_S1x10752_1 b)))
    = Cert.Lit.lit x w mk b := by
  show Read.val_main_v5 (F := Ideal) x w mk b = _
  funext j
  obtain ⟨p, q, rfl⟩ : ∃ (p : Fin 8192) (q : Fin 10752), j = ix2 p q := ⟨j 0, j 1, eq_ix2 j⟩
  rw [Read.val_main_v5_apply, Read.val_main_v4_apply, Read.val_main_v1_apply, Read.val_main_v3_apply,
    Read.val_main_v2_apply, Cert.Lit.lit_apply]
  simp only [Read.val_main_v0_apply, lidx_eq, ridx_eq, bidx_eq, Ideal.hostUnary_tanh_def, Ideal.addf_def,
    Ideal.mulf_def]

end Cert.RefLit

end
-- ==== Proof.lean ====
/-
  The certificate of a disjunctive-normal-form network layer: a Pallas kernel for the literal layer followed by host
  code, against the plain jnp reference.

  Both programs compute, for a batch `x` [8192, 512], the literal layer
      lits[i, l] = tanh( Σ_k x[i,k] · (weight[k,l] · mask[k,l]) + bias[l] ),      [8192, 10752]
  and then THE SAME host lines: a soft AND over the literals of each conjunction, a soft OR over the conjunctions of each
  formula, and softmax localization weights over the 256 formulas from the distances of each row to the formulas'
  centres; the result is the OR layer times those weights, [8192, 256].

  The kernel computes the literal layer block by block on a 7 x 8 grid, each 1024 x 1536 block by one matrix product of
  the row block of `x` with the column block of weight · mask (both narrowed to bf16 first), plus the bias entries of
  the column block, through tanh. On the extended reals a change of float format is the identity and the matrix product
  into a zero accumulator is the plain sum over the 512 features, so each block is the block of the one whole-array
  function above; the blocks tile the array. The reference computes the same array by one `dot_general` and a
  broadcast of the bias. No algebraic law beyond re-indexing the sum is used, so the inputs' finiteness is never opened.

  The three frames: each kernel program's run is the library's frame run around a region — the body's one store
  covers its output buffer, the inputs' buffers hold their blocks at every point, and the 81 host lines after the region
  touch only unscoped buffers, allocate nothing and write neither a staged array nor an argument; the reference is a
  straight line of host operations.
-/
import proofs.«163715_j26259430048006_1_alg».proof.Defs
import proofs.«163715_j26259430048006_1_alg».proof.Proof.Gen.Kernel
import proofs.«163715_j26259430048006_1_alg».proof.Proof.Gen.KernelIdeal
import proofs.«163715_j26259430048006_1_alg».proof.Proof.Gen.ReferenceIdeal
import proofs.«163715_j26259430048006_1_alg».proof.Proof.Gen.Pre_finite_inputs
import proofs.«163715_j26259430048006_1_alg».proof.Proof.Gen.ReferenceIdeal.Run
import proofs.«163715_j26259430048006_1_alg».proof.Proof.KBody
import proofs.«163715_j26259430048006_1_alg».proof.Proof.KIBody
import proofs.«163715_j26259430048006_1_alg».proof.Proof.KIValue
import proofs.«163715_j26259430048006_1_alg».proof.Proof.RefLiterals
import proofs.«163715_j26259430048006_1_alg».proof.Proof.Tail

set_option maxRecDepth 16384
set_option maxHeartbeats 40000000

noncomputable section

namespace Cert.Proof

open Idealize.ShloMosaic Idealize.ShloMosaic.TcCoe Idealize.SL.Sem

/-- The kernel as printed runs to the end, faults nowhere, and leaves its eight arguments as launched. -/
theorem frame_k : Cert.frame_Kernel := fun m ρ _ => Cert.Kernel.Body.frame m ρ

/-- So does its idealization. -/
theorem frame_ki : Cert.frame_KernelIdeal := fun m ρ _ => Cert.KernelIdeal.Body.frame m ρ

/-- The reference is a straight line of host operations: its generated run, the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the kernel's own text read at the extended reals. -/
theorem preserves : Cert.preserves_Kernel_KernelIdeal := trivial

/-- At the extended reals, from memories agreeing on the arguments, both programs end with the shared tail of the
    literal layer of the arguments: the kernel's by its blocks tiling the layer, the reference's by its first six host
    lines read index by index. -/
theorem algebraic : Cert.algebraic_KernelIdeal_ReferenceIdeal := by
  intro m ρ m' ρ' _ hagree
  refine ⟨_, Cert.KerValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.Tail.ref_result, a0, a1, a2, a3, a4, a5, a6, a7]
  exact Cert.KerValue.tail_congr (Cert.RefLit.ref_lits_eq _ _ _ _) rfl rfl rfl rfl rfl

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
